-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S125000x3 : Shape := ⟨2, ![125000, 3]⟩
abbrev S2x4000000 : Shape := ⟨2, ![2, 4000000]⟩
abbrev S10x3 : Shape := ⟨2, ![10, 3]⟩
abbrev S10 : Shape := ⟨1, ![10]⟩
abbrev S1x20 : Shape := ⟨2, ![1, 20]⟩
abbrev S1 : Shape := ⟨1, ![1]⟩
abbrev S_ : Shape := ⟨0, ![]⟩

class Facts : Prop where
  bcast_S_S125000x3 : S_.BroadcastsInDim S125000x3 (![] : Fin 0 → Fin S125000x3.rank)
  reducesTo_S125000x3_S_d0_1 : S125000x3.ReducesTo [0, 1] S_
  h_S_ : 0 < S_.numel
  bcast_S_S10x3 : S_.BroadcastsInDim S10x3 (![] : Fin 0 → Fin S10x3.rank)
  reducesTo_S10x3_S_d0_1 : S10x3.ReducesTo [0, 1] S_
  bcast_S_S10 : S_.BroadcastsInDim S10 (![] : Fin 0 → Fin S10.rank)
  reducesTo_S10_S_d0 : S10.ReducesTo [0] S_
  bcast_S_S1x20 : S_.BroadcastsInDim S1x20 (![] : Fin 0 → Fin S1x20.rank)
  reducesTo_S1x20_S_d0_1 : S1x20.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S10 .f32) (main_arg6 : FVec F S1x20 .f32) (main_arg7 : FVec F S1 .f32) (main_v13 : IVec S_ 1) (main_v16 : IVec S10x3 1) : IVec S_ 1 :=
  let main_c_5 : IVec S_ 1 := constantI S_ 1 1#1
  let main_v17 : IVec S_ 1 := (fun x v => Host.reduce IntOp.andi x v reducesTo_S10x3_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S1x20 .f32 := Host.absf main_arg6
  let main_cst_8 : FVec F S_ .f32 := constant S_ .f32 0x7F800000#32
  let main_v25 : FVec F S1x20 .f32 := broadcastInDim S1x20 ![] bcast_S_S1x20 main_cst_8
  let main_v26 : IVec S1x20 1 := cmpf .olt main_v24 main_v25
  let main_c_9 : IVec S_ 1 := constantI S_ 1 1#1
  let main_v27 : IVec S_ 1 := (fun x v => Host.reduce IntOp.andi x v reducesTo_S1x20_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S125000x3 .f32) (main_arg1 : IVec S2x4000000 32) (main_arg2 : FVec F S10x3 .f32) (main_arg3 : FVec F S10 .f32) (main_arg4 : FVec F S10x3 .f32) (main_arg5 : FVec F S10 .f32) (main_arg6 : FVec F S1x20 .f32) (main_arg7 : FVec F S1 .f32) : IVec S_ 1 :=
  let main_v0 : FVec F S125000x3 .f32 := Host.absf main_arg0
  let main_cst : FVec F S_ .f32 := constant S_ .f32 0x7F800000#32
  let main_v1 : FVec F S125000x3 .f32 := broadcastInDim S125000x3 ![] bcast_S_S125000x3 main_cst
  let main_v2 : IVec S125000x3 1 := cmpf .olt main_v0 main_v1
  let main_c : IVec S_ 1 := constantI S_ 1 1#1
  let main_v3 : IVec S_ 1 := (fun x v => Host.reduce IntOp.andi x v reducesTo_S125000x3_S_d0_1 h_S_) main_v2 main_c
  let main_v4 : FVec F S10x3 .f32 := Host.absf main_arg2
  let main_cst_0 : FVec F S_ .f32 := constant S_ .f32 0x7F800000#32
  let main_v5 : FVec F S10x3 .f32 := broadcastInDim S10x3 ![] bcast_S_S10x3 main_cst_0
  let main_v6 : IVec S10x3 1 := cmpf .olt main_v4 main_v5
  let main_c_1 : IVec S_ 1 := constantI S_ 1 1#1
  let main_v7 : IVec S_ 1 := (fun x v => Host.reduce IntOp.andi x v reducesTo_S10x3_S_d0_1 h_S_) main_v6 main_c_1
  let main_v8 : IVec S_ 1 := andi main_v3 main_v7
  let main_v9 : FVec F S10 .f32 := Host.absf main_arg3
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10x3 .f32 := Host.absf main_arg4
  let main_cst_4 : FVec F S_ .f32 := constant S_ .f32 0x7F800000#32
  let main_v15 : FVec F S10x3 .f32 := broadcastInDim S10x3 ![] bcast_S_S10x3 main_cst_4
  let main_v16 : IVec S10x3 1 := cmpf .olt main_v14 main_v15
  fn_part1 (F := F) main_arg5 main_arg6 main_arg7 main_v13 main_v16
-- ==== Kernel.lean ====
abbrev S125000x3 : Shape := ⟨2, ![125000, 3]⟩
abbrev S2x4000000 : Shape := ⟨2, ![2, 4000000]⟩
abbrev S10x3 : Shape := ⟨2, ![10, 3]⟩
abbrev S10 : Shape := ⟨1, ![10]⟩
abbrev S1x20 : Shape := ⟨2, ![1, 20]⟩
abbrev S1 : Shape := ⟨1, ![1]⟩
abbrev S3x125000 : Shape := ⟨2, ![3, 125000]⟩
abbrev S10x1 : Shape := ⟨2, ![10, 1]⟩
abbrev S10x125000 : Shape := ⟨2, ![10, 125000]⟩
abbrev S125000x10 : Shape := ⟨2, ![125000, 10]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S4000000x10 : Shape := ⟨2, ![4000000, 10]⟩
abbrev S10x4000000 : Shape := ⟨2, ![10, 4000000]⟩
abbrev S1x10 : Shape := ⟨2, ![1, 10]⟩
abbrev S1x1 : Shape := ⟨2, ![1, 1]⟩
abbrev S10x80000 : Shape := ⟨2, ![10, 80000]⟩
abbrev S1x80000 : Shape := ⟨2, ![1, 80000]⟩
abbrev S80000 : Shape := ⟨1, ![80000]⟩

abbrev nBuf : Space → Nat
  | .hbm => 41
  | .vmem => 13
  | .smem => 0
  | _ => 0

abbrev bufTy : (tb : Table) → Fin (tcTables nBuf tb) → BufTy
  | .hbm, ⟨0, _⟩ => ⟨S125000x3, .f32⟩
  | .hbm, ⟨1, _⟩ => ⟨S2x4000000, .i32⟩
  | .hbm, ⟨2, _⟩ => ⟨S10x3, .f32⟩
  | .hbm, ⟨3, _⟩ => ⟨S10, .f32⟩
  | .hbm, ⟨4, _⟩ => ⟨S10x3, .f32⟩
  | .hbm, ⟨5, _⟩ => ⟨S10, .f32⟩
  | .hbm, ⟨6, _⟩ => ⟨S1x20, .f32⟩
  | .hbm, ⟨7, _⟩ => ⟨S1, .f32⟩
  | .hbm, ⟨8, _⟩ => ⟨S3x125000, .f32⟩
  | .hbm, ⟨9, _⟩ => ⟨S10x1, .f32⟩
  | .hbm, ⟨10, _⟩ => ⟨S10x125000, .f32⟩
  | .hbm, ⟨11, _⟩ => ⟨S125000x10, .f32⟩
  | .hbm, ⟨12, _⟩ => ⟨S1x4000000, .i32⟩
  | .hbm, ⟨13, _⟩ => ⟨S4000000, .i32⟩
  | .hbm, ⟨14, _⟩ => ⟨S1x4000000, .i32⟩
  | .hbm, ⟨15, _⟩ => ⟨S4000000, .i32⟩
  | .hbm, ⟨16, _⟩ => ⟨S_, .i32⟩
  | .hbm, ⟨17, _⟩ => ⟨S4000000, .i32⟩
  | .hbm, ⟨18, _⟩ => ⟨S4000000, .i1⟩
  | .hbm, ⟨19, _⟩ => ⟨S_, .i32⟩
  | .hbm, ⟨20, _⟩ => ⟨S4000000, .i32⟩
  | .hbm, ⟨21, _⟩ => ⟨S4000000, .i32⟩
  | .hbm, ⟨22, _⟩ => ⟨S4000000, .i32⟩
  | .hbm, ⟨23, _⟩ => ⟨S4000000x1, .i32⟩
  | .hbm, ⟨24, _⟩ => ⟨S4000000x10, .f32⟩
  | .hbm, ⟨25, _⟩ => ⟨S_, .i32⟩
  | .hbm, ⟨26, _⟩ => ⟨S4000000, .i32⟩
  | .hbm, ⟨27, _⟩ => ⟨S4000000, .i1⟩
  | .hbm, ⟨28, _⟩ => ⟨S_, .i32⟩
  | .hbm, ⟨29, _⟩ => ⟨S4000000, .i32⟩
  | .hbm, ⟨30, _⟩ => ⟨S4000000, .i32⟩
  | .hbm, ⟨31, _⟩ => ⟨S4000000, .i32⟩
  | .hbm, ⟨32, _⟩ => ⟨S4000000x1, .i32⟩
  | .hbm, ⟨33, _⟩ => ⟨S4000000x10, .f32⟩
  | .hbm, ⟨34, _⟩ => ⟨S10x4000000, .f32⟩
  | .hbm, ⟨35, _⟩ => ⟨S10x4000000, .f32⟩
  | .hbm, ⟨36, _⟩ => ⟨S1x10, .f32⟩
  | .hbm, ⟨37, _⟩ => ⟨S1x10, .f32⟩
  | .hbm, ⟨38, _⟩ => ⟨S1x1, .f32⟩
  | .hbm, ⟨39, _⟩ => ⟨S1x4000000, .f32⟩
  | .hbm, ⟨40, _⟩ => ⟨S4000000x1, .f32⟩
  | .local _ .vmem, ⟨0, _⟩ => ⟨S3x125000, .f32⟩
  | .local _ .vmem, ⟨1, _⟩ => ⟨S10x3, .f32⟩
  | .local _ .vmem, ⟨2, _⟩ => ⟨S10x1, .f32⟩
  | .local _ .vmem, ⟨3, _⟩ => ⟨S10x125000, .f32⟩
  | .local _ .vmem, ⟨4, _⟩ => ⟨S10x80000, .f32⟩
  | .local _ .vmem, ⟨5, _⟩ => ⟨S10x80000, .f32⟩
  | .local _ .vmem, ⟨6, _⟩ => ⟨S10x80000, .f32⟩
  | .local _ .vmem, ⟨7, _⟩ => ⟨S10x80000, .f32⟩
  | .local _ .vmem, ⟨8, _⟩ => ⟨S1x10, .f32⟩
  | .local _ .vmem, ⟨9, _⟩ => ⟨S1x10, .f32⟩
  | .local _ .vmem, ⟨10, _⟩ => ⟨S1x1, .f32⟩
  | .local _ .vmem, ⟨11, _⟩ => ⟨S1x80000, .f32⟩
  | .local _ .vmem, ⟨12, _⟩ => ⟨S1x80000, .f32⟩
  | _, _ => ⟨S125000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x125000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x125000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S10x80000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10x80000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x80000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S125000x3_S3x125000_1_0 : S125000x3.Transposes [1, 0] S3x125000
  shapeCasts_S10_S10x1 : S10.ShapeCasts S10x1
  inb_S3x125000_S3x125000_0_0 : ∀ a, (![0, 0] : Fin 2 → Nat) a + S3x125000.size a ≤ S3x125000.size a
  h_S3x125000 : 0 < S3x125000.numel
  shapeCasts_S3x125000_S3x125000 : S3x125000.ShapeCasts S3x125000
  inb_S10x3_S10x3_0_0 : ∀ a, (![0, 0] : Fin 2 → Nat) a + S10x3.size a ≤ S10x3.size a
  h_S10x3 : 0 < S10x3.numel
  inb_S10x1_S10x1_0_0 : ∀ a, (![0, 0] : Fin 2 → Nat) a + S10x1.size a ≤ S10x1.size a
  h_S10x1 : 0 < S10x1.numel
  shapeCasts_S10x1_S10x1 : S10x1.ShapeCasts S10x1
  broadcasts_S10x1_S10x125000 : S10x1.Broadcasts S10x125000
  inb_S10x125000_S10x125000_0_0 : ∀ a, (![0, 0] : Fin 2 → Nat) a + S10x125000.size a ≤ S10x125000.size a
  h_S10x125000 : 0 < S10x125000.numel
  transposes_S10x125000_S125000x10_1_0 : S10x125000.Transposes [1, 0] S125000x10
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  transposes_S4000000x10_S10x4000000_1_0 : S4000000x10.Transposes [1, 0] S10x4000000
  slices_S1x20_S1x10_0_0 : S1x20.Slices ![0, 0] S1x10
  slices_S1x20_S1x10_0_10 : S1x20.Slices ![0, 10] S1x10
  shapeCasts_S1_S1x1 : S1.ShapeCasts S1x1
  inb_S10x80000_S10x80000_0_0 : ∀ a, (![0, 0] : Fin 2 → Nat) a + S10x80000.size a ≤ S10x80000.size a
  h_S10x80000 : 0 < S10x80000.numel
  shapeCasts_S10x80000_S10x80000 : S10x80000.ShapeCasts S10x80000
  reduces_S10x80000_S80000 : S10x80000.Reduces [0] S80000
  shapeCasts_S80000_S1x80000 : S80000.ShapeCasts S1x80000
  natLt_1_32 : 1 < 32
  inb_S1x10_S1x10_0_0 : ∀ a, (![0, 0] : Fin 2 → Nat) a + S1x10.size a ≤ S1x10.size a
  h_S1x10 : 0 < S1x10.numel
  shapeCasts_S1x10_S1x10 : S1x10.ShapeCasts S1x10
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x80000 : S1x1.Broadcasts S1x80000
  inb_S1x80000_S1x80000_0_0 : ∀ a, (![0, 0] : Fin 2 → Nat) a + S1x80000.size a ≤ S1x80000.size a
  h_S1x80000 : 0 < S1x80000.numel
  transposes_S1x4000000_S4000000x1_1_0 : S1x4000000.Transposes [1, 0] S4000000x1
  dot_S10x3_S3x125000_S10x125000_1_0_0_1_n_n_wf : DotDims.WF S10x3 S3x125000 S10x125000 [1] [0] [0] [1] [] []
  gather_S125000x10_S4000000x1_S4000000x10_1_0_n_n_0_1_110_wf : GatherDims.WF S125000x10 S4000000x1 S4000000x10 [1] [0] [] [0] [] 1 ![1, 10]
  dot_S1x10_S10x80000_S1x80000_1_0_0_1_n_n_wf : DotDims.WF S1x10 S10x80000 S1x80000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x125000.size a ≤ S3x125000.size a
  hwx0_0 : ∀ i : grid0.Coords, EltTy.bits .f32 = 32 ∨ (Rect.block (s := S3x125000) S3x125000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x3.size a ≤ S10x3.size a
  hwx0_1 : ∀ i : grid0.Coords, EltTy.bits .f32 = 32 ∨ (Rect.block (s := S10x3) S10x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x1.size a ≤ S10x1.size a
  hwx0_2 : ∀ i : grid0.Coords, EltTy.bits .f32 = 32 ∨ (Rect.block (s := S10x1) S10x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x125000.size a ≤ S10x125000.size a
  hwx0_3 : ∀ i : grid0.Coords, EltTy.bits .f32 = 32 ∨ (Rect.block (s := S10x125000) S10x125000.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10x80000.size a ≤ S10x4000000.size a
  hwx1_0 : ∀ i : grid1.Coords, EltTy.bits .f32 = 32 ∨ (Rect.block (s := S10x4000000) S10x80000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10x80000.size a ≤ S10x4000000.size a
  hwx1_1 : ∀ i : grid1.Coords, EltTy.bits .f32 = 32 ∨ (Rect.block (s := S10x4000000) S10x80000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10.size a ≤ S1x10.size a
  hwx1_2 : ∀ i : grid1.Coords, EltTy.bits .f32 = 32 ∨ (Rect.block (s := S1x10) S1x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x10.size a ≤ S1x10.size a
  hwx1_3 : ∀ i : grid1.Coords, EltTy.bits .f32 = 32 ∨ (Rect.block (s := S1x10) S1x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x80000.size a ≤ S1x4000000.size a
  hwx1_5 : ∀ i : grid1.Coords, EltTy.bits .f32 = 32 ∨ (Rect.block (s := S1x4000000) S1x80000.size (cc1_transform_5 i) (hinb1_5 i)).WholeWords (EltTy.packing .f32)

variable [Facts₀]

def dot_S10x3_S3x125000_S10x125000_1_0_0_1_n_n : DotDims S10x3 S3x125000 S10x125000 where
  lhsContracting := [1]
  rhsContracting := [0]
  lhsNonContracting := [0]
  rhsNonContracting := [1]
  lhsBatch := []
  rhsBatch := []
  wf := dot_S10x3_S3x125000_S10x125000_1_0_0_1_n_n_wf
def gather_S125000x10_S4000000x1_S4000000x10_1_0_n_n_0_1_110 : GatherDims S125000x10 S4000000x1 S4000000x10 where
  offsetDims := [1]
  collapsedSliceDims := [0]
  operandBatchingDims := []
  startIndicesBatchingDims := []
  startIndexMap := [0]
  indexVectorDim := 1
  sliceSizes := ![1, 10]
  wf := gather_S125000x10_S4000000x1_S4000000x10_1_0_n_n_0_1_110_wf
def dot_S1x10_S10x80000_S1x80000_1_0_0_1_n_n : DotDims S1x10 S10x80000 S1x80000 where
  lhsContracting := [1]
  rhsContracting := [0]
  lhsNonContracting := [0]
  rhsNonContracting := [1]
  lhsBatch := []
  rhsBatch := []
  wf := dot_S1x10_S10x80000_S1x80000_1_0_0_1_n_n_wf

abbrev win0_0 : Pipeline.Window sig grid0 :=
  Pipeline.Window.ofSpec (Memref.whole main_v0) S3x125000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S10x125000.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S10x80000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S10x80000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x80000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S125000x3 : Shape := ⟨2, ![125000, 3]⟩
abbrev S2x4000000 : Shape := ⟨2, ![2, 4000000]⟩
abbrev S10x3 : Shape := ⟨2, ![10, 3]⟩
abbrev S10 : Shape := ⟨1, ![10]⟩
abbrev S1x20 : Shape := ⟨2, ![1, 20]⟩
abbrev S1 : Shape := ⟨1, ![1]⟩
abbrev S3x10 : Shape := ⟨2, ![3, 10]⟩
abbrev S125000x10 : Shape := ⟨2, ![125000, 10]⟩
abbrev S1x10 : Shape := ⟨2, ![1, 10]⟩
abbrev S_ : Shape := ⟨0, ![]⟩
abbrev S1x4000000 : Shape := ⟨2, ![1, 4000000]⟩
abbrev S4000000 : Shape := ⟨1, ![4000000]⟩
abbrev S4000000x1 : Shape := ⟨2, ![4000000, 1]⟩
abbrev S4000000x10 : Shape := ⟨2, ![4000000, 10]⟩
abbrev S4000000x20 : Shape := ⟨2, ![4000000, 20]⟩
abbrev S20x1 : Shape := ⟨2, ![20, 1]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S125000x3, .f32⟩
  | .hbm, ⟨1, _⟩ => ⟨S2x4000000, .i32⟩
  | .hbm, ⟨2, _⟩ => ⟨S10x3, .f32⟩
  | .hbm, ⟨3, _⟩ => ⟨S10, .f32⟩
  | .hbm, ⟨4, _⟩ => ⟨S10x3, .f32⟩
  | .hbm, ⟨5, _⟩ => ⟨S10, .f32⟩
  | .hbm, ⟨6, _⟩ => ⟨S1x20, .f32⟩
  | .hbm, ⟨7, _⟩ => ⟨S1, .f32⟩
  | .hbm, ⟨8, _⟩ => ⟨S3x10, .f32⟩
  | .hbm, ⟨9, _⟩ => ⟨S125000x10, .f32⟩
  | .hbm, ⟨10, _⟩ => ⟨S1x10, .f32⟩
  | .hbm, ⟨11, _⟩ => ⟨S125000x10, .f32⟩
  | .hbm, ⟨12, _⟩ => ⟨S125000x10, .f32⟩
  | .hbm, ⟨13, _⟩ => ⟨S125000x10, .f32⟩
  | .hbm, ⟨14, _⟩ => ⟨S125000x10, .f32⟩
  | .hbm, ⟨15, _⟩ => ⟨S_, .f32⟩
  | .hbm, ⟨16, _⟩ => ⟨S125000x10, .f32⟩
  | .hbm, ⟨17, _⟩ => ⟨S125000x10, .f32⟩
  | .hbm, ⟨18, _⟩ => ⟨S_, .f32⟩
  | .hbm, ⟨19, _⟩ => ⟨S125000x10, .f32⟩
  | .hbm, ⟨20, _⟩ => ⟨S125000x10, .f32⟩
  | .hbm, ⟨21, _⟩ => ⟨S3x10, .f32⟩
  | .hbm, ⟨22, _⟩ => ⟨S125000x10, .f32⟩
  | .hbm, ⟨23, _⟩ => ⟨S1x10, .f32⟩
  | .hbm, ⟨24, _⟩ => ⟨S125000x10, .f32⟩
  | .hbm, ⟨25, _⟩ => ⟨S125000x10, .f32⟩
  | .hbm, ⟨26, _⟩ => ⟨S125000x10, .f32⟩
  | .hbm, ⟨27, _⟩ => ⟨S125000x10, .f32⟩
  | .hbm, ⟨28, _⟩ => ⟨S_, .f32⟩
  | .hbm, ⟨29, _⟩ => ⟨S125000x10, .f32⟩
  | .hbm, ⟨30, _⟩ => ⟨S125000x10, .f32⟩
  | .hbm, ⟨31, _⟩ => ⟨S_, .f32⟩
  | .hbm, ⟨32, _⟩ => ⟨S125000x10, .f32⟩
  | .hbm, ⟨33, _⟩ => ⟨S125000x10, .f32⟩
  | .hbm, ⟨34, _⟩ => ⟨S1x4000000, .i32⟩
  | .hbm, ⟨35, _⟩ => ⟨S4000000, .i32⟩
  | .hbm, ⟨36, _⟩ => ⟨S1x4000000, .i32⟩
  | .hbm, ⟨37, _⟩ => ⟨S4000000, .i32⟩
  | .hbm, ⟨38, _⟩ => ⟨S_, .i32⟩
  | .hbm, ⟨39, _⟩ => ⟨S4000000, .i32⟩
  | .hbm, ⟨40, _⟩ => ⟨S4000000, .i1⟩
  | .hbm, ⟨41, _⟩ => ⟨S_, .i32⟩
  | .hbm, ⟨42, _⟩ => ⟨S4000000, .i32⟩
  | .hbm, ⟨43, _⟩ => ⟨S4000000, .i32⟩
  | .hbm, ⟨44, _⟩ => ⟨S4000000, .i32⟩
  | .hbm, ⟨45, _⟩ => ⟨S4000000x1, .i32⟩
  | .hbm, ⟨46, _⟩ => ⟨S4000000x10, .f32⟩
  | .hbm, ⟨47, _⟩ => ⟨S_, .i32⟩
  | .hbm, ⟨48, _⟩ => ⟨S4000000, .i32⟩
  | .hbm, ⟨49, _⟩ => ⟨S4000000, .i1⟩
  | .hbm, ⟨50, _⟩ => ⟨S_, .i32⟩
  | .hbm, ⟨51, _⟩ => ⟨S4000000, .i32⟩
  | .hbm, ⟨52, _⟩ => ⟨S4000000, .i32⟩
  | .hbm, ⟨53, _⟩ => ⟨S4000000, .i32⟩
  | .hbm, ⟨54, _⟩ => ⟨S4000000x1, .i32⟩
  | .hbm, ⟨55, _⟩ => ⟨S4000000x10, .f32⟩
  | .hbm, ⟨56, _⟩ => ⟨S4000000x10, .f32⟩
  | .hbm, ⟨57, _⟩ => ⟨S4000000x10, .f32⟩
  | .hbm, ⟨58, _⟩ => ⟨S_, .f32⟩
  | .hbm, ⟨59, _⟩ => ⟨S4000000, .f32⟩
  | .hbm, ⟨60, _⟩ => ⟨S4000000, .f32⟩
  | .hbm, ⟨61, _⟩ => ⟨S_, .f32⟩
  | .hbm, ⟨62, _⟩ => ⟨S4000000, .f32⟩
  | .hbm, ⟨63, _⟩ => ⟨S4000000, .i1⟩
  | .hbm, ⟨64, _⟩ => ⟨S4000000x20, .f32⟩
  | .hbm, ⟨65, _⟩ => ⟨S20x1, .f32⟩
  | .hbm, ⟨66, _⟩ => ⟨S4000000x1, .f32⟩
  | .hbm, ⟨67, _⟩ => ⟨S1x1, .f32⟩
  | .hbm, ⟨68, _⟩ => ⟨S4000000x1, .f32⟩
  | .hbm, ⟨69, _⟩ => ⟨S4000000x1, .f32⟩
  | .hbm, ⟨70, _⟩ => ⟨S4000000x1, .i1⟩
  | .hbm, ⟨71, _⟩ => ⟨S4000000x1, .f32⟩
  | .hbm, ⟨72, _⟩ => ⟨S4000000x1, .f32⟩
  | _, _ => ⟨S125000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call0_v0 : Ref sig .tc := ⟨.hbm, 57, rfl⟩
abbrev main_call0_cst : Ref sig .tc := ⟨.hbm, 58, rfl⟩
abbrev main_call0_v1 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]

class Facts₀ : Prop where
  transposes_S10x3_S3x10_1_0 : S10x3.Transposes [1, 0] S3x10
  bcast_S10_S1x10_1 : S10.BroadcastsInDim S1x10 (![1] : Fin 1 → Fin S1x10.rank)
  bcast_S1x10_S125000x10_0_1 : S1x10.BroadcastsInDim S125000x10 (![0, 1] : Fin 2 → Fin S125000x10.rank)
  bcast_S_S125000x10 : S_.BroadcastsInDim S125000x10 (![] : Fin 0 → Fin S125000x10.rank)
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  reducesTo_S4000000x10_S4000000_d1 : S4000000x10.ReducesTo [1] S4000000
  h_S_ : 0 < S_.numel
  concatenates_S4000000x10_S4000000x10_S4000000x20_d1 : Shape.Concatenates [S4000000x10, S4000000x10] S4000000x20 1
  transposes_S1x20_S20x1_1_0 : S1x20.Transposes [1, 0] S20x1
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  dot_S125000x3_S3x10_S125000x10_1_0_0_1_n_n_wf : DotDims.WF S125000x3 S3x10 S125000x10 [1] [0] [0] [1] [] []
  gather_S125000x10_S4000000x1_S4000000x10_1_0_n_n_0_1_110_wf : GatherDims.WF S125000x10 S4000000x1 S4000000x10 [1] [0] [] [0] [] 1 ![1, 10]
  dot_S4000000x20_S20x1_S4000000x1_1_0_0_1_n_n_wf : DotDims.WF S4000000x20 S20x1 S4000000x1 [1] [0] [0] [1] [] []

variable [Facts₀]

def dot_S125000x3_S3x10_S125000x10_1_0_0_1_n_n : DotDims S125000x3 S3x10 S125000x10 where
  lhsContracting := [1]
  rhsContracting := [0]
  lhsNonContracting := [0]
  rhsNonContracting := [1]
  lhsBatch := []
  rhsBatch := []
  wf := dot_S125000x3_S3x10_S125000x10_1_0_0_1_n_n_wf
def gather_S125000x10_S4000000x1_S4000000x10_1_0_n_n_0_1_110 : GatherDims S125000x10 S4000000x1 S4000000x10 where
  offsetDims := [1]
  collapsedSliceDims := [0]
  operandBatchingDims := []
  startIndicesBatchingDims := []
  startIndexMap := [0]
  indexVectorDim := 1
  sliceSizes := ![1, 10]
  wf := gather_S125000x10_S4000000x1_S4000000x10_1_0_n_n_0_1_110_wf
def dot_S4000000x20_S20x1_S4000000x1_1_0_0_1_n_n : DotDims S4000000x20 S20x1 S4000000x1 where
  lhsContracting := [1]
  rhsContracting := [0]
  lhsNonContracting := [0]
  rhsNonContracting := [1]
  lhsBatch := []
  rhsBatch := []
  wf := dot_S4000000x20_S20x1_S4000000x1_1_0_0_1_n_n_wf

class Facts : Prop extends Facts₀ where

variable [Facts]
-- ==== Proof.KernelRun.lean ====
/-
  The whole program's run with its RESULT named.

  The program is two kernel regions among three stretches of host operations. Its buffers at each boundary are a fold
  from the launch memory: after the first host stretch, after region 0 (its output array at what the pipeline's
  write-backs leave), after the second host stretch, after region 1, after the last host stretch. Every weakly fair
  execution terminates without a fault, with the result buffer holding what that fold gives it and the argument arrays
  as launched.
-/
import proofs.«110728_j22153441312926_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and every argument array as launched. -/
theorem run_result : θ_run defs (onTc (τ := τ) (main (F := F))) ⟨m, fun _ => 0, ρ⟩ (fun r => ∀ c : Dev nD,
      r.2.mem ((c.tc : Thread nD τ).loc main_v28) = W5 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v28 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.RunValue

end
-- ==== Proof.ProjArray.lean ====
/-
  Region 0, from blocks to the array.

  The projection kernel runs at ONE grid point and every window's block is its whole array, at block index (0, 0). So the
  block the body reads of each input is the array itself, and the array the one write-back leaves is the body's stored
  value of the three input arrays: logistic(w · xt + b) as a whole [10, N] array.
-/
import proofs.«110728_j22153441312926_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.ProjArray

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Every window's block index is (0, 0) at the one grid point. -/
theorem idx_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The transposed points' block is the whole array. -/
theorem blk_xt (c : Dev nD) (t : Fin cfg0.N) :
    (iblk0 V c 0 t : S3x125000.Idx → Elt F .f32) = (V c main_v0 : S3x125000.Idx → Elt F .f32) := by
  obtain ⟨e0, e1, -⟩ := idx_zero t
  funext j
  unfold iblk0
  rw [View.read_apply]
  show V c main_v0 _ = V c main_v0 j
  congr 1
  funext a
  apply Fin.ext
  match a with
  | ⟨0, _⟩ => show win0_0.index t (0 : Fin 2) * 3 + 1 * (j 0).val = (j 0).val; rw [e0]; omega
  | ⟨1, _⟩ => show win0_0.index t (1 : Fin 2) * 125000 + 1 * (j 1).val = (j 1).val; rw [e1]; omega

/-- The weights' block is the whole array. -/
theorem blk_w (c : Dev nD) (t : Fin cfg0.N) :
    (iblk0 V c 1 t : S10x3.Idx → Elt F .f32) = (V c main_arg2 : S10x3.Idx → Elt F .f32) := by
  obtain ⟨-, -, e0, e1, -⟩ := idx_zero t
  funext j
  unfold iblk0
  rw [View.read_apply]
  show V c main_arg2 _ = V c main_arg2 j
  congr 1
  funext a
  apply Fin.ext
  match a with
  | ⟨0, _⟩ => show win0_1.index t (0 : Fin 2) * 10 + 1 * (j 0).val = (j 0).val; rw [e0]; omega
  | ⟨1, _⟩ => show win0_1.index t (1 : Fin 2) * 3 + 1 * (j 1).val = (j 1).val; rw [e1]; omega

/-- The bias column's block is the whole array. -/
theorem blk_b (c : Dev nD) (t : Fin cfg0.N) :
    (iblk0 V c 2 t : S10x1.Idx → Elt F .f32) = (V c main_v1 : S10x1.Idx → Elt F .f32) := by
  obtain ⟨-, -, -, -, e0, e1, -⟩ := idx_zero t
  funext j
  unfold iblk0
  rw [View.read_apply]
  show V c main_v1 _ = V c main_v1 j
  congr 1
  funext a
  apply Fin.ext
  match a with
  | ⟨0, _⟩ => show win0_2.index t (0 : Fin 2) * 10 + 1 * (j 0).val = (j 0).val; rw [e0]; omega
  | ⟨1, _⟩ => show win0_2.index t (1 : Fin 2) * 1 + 1 * (j 1).val = (j 1).val; rw [e1]; omega

/-- The array region 0 leaves: the body's stored value of the three whole input arrays. -/
abbrev table (c : Dev nD) : S10x125000.Idx → Elt F .f32 :=
  k0_pay1 (V c main_v0) (V c main_arg2) (V c main_v1)

/-- What the one point writes back is the (whole) block of `table`. -/
theorem flushed_eq (c : Dev nD) (t : Fin cfg0.N) :
    (dat0 V c).flushed 3 t = ((cfg0.win 3).blk t).view.read (Elt F) (table V c) := by
  obtain ⟨-, -, -, -, -, -, e0, e1⟩ := idx_zero t
  show (cfg0.win 3).cut (grid0.coords t) ((dat0 V c).after 3 t) = _
  rw [after0_3]
  unfold out0_3
  rw [View.canon_unit_zero hz]
  simp only [View.ld_unit_zero (S := S3x125000) hz, View.ld_unit_zero (S := S10x3) hz, View.ld_unit_zero (S := S10x1) hz]
  rw [blk_xt V c t, blk_w V c t, blk_b V c t]
  funext j
  rw [View.read_apply]
  show k0_pay1 (V c main_v0) (V c main_arg2) (V c main_v1) j = k0_pay1 (V c main_v0) (V c main_arg2) (V c main_v1) _
  congr 1
  funext a
  apply Fin.ext
  match a with
  | ⟨0, _⟩ => show (j 0).val = win0_3.index t (0 : Fin 2) * 10 + 1 * (j 0).val; rw [e0]; omega
  | ⟨1, _⟩ => show (j 1).val = win0_3.index t (1 : Fin 2) * 125000 + 1 * (j 1).val; rw [e1]; omega

/-- An index of the array is in the point's block iff each coordinate is in the block's range on its axis. -/
theorem mem_blk (t : Fin cfg0.N) (i : S10x125000.Idx) :
    i ∈ ((cfg0.win 3).blk t).view.set ↔ ∀ a : Fin 2, win0_3.index t a * S10x125000.size a ≤ (i a).val ∧ (i a).val < win0_3.index t a * S10x125000.size a + S10x125000.size a := by
  show i ∈ ((View.whole main_v2).slice (win0_3.rect t)).set ↔ _
  rw [View.set_slice_whole, Rect.mem_set_unit]
  exact Iff.rfl

/-- THE ARRAY after region 0. -/
theorem final (c : Dev nD) : (dat0 V c).arrAt 3 cfg0.N = table V c :=
  (dat0 V c).arrAt_eq_of_cover 3 (table V c) (fun t _ => flushed_eq V c t) fun i => by
    have hN : 0 < cfg0.N := by rw [show cfg0.N = 1 from N_0]; decide
    refine ⟨⟨0, hN⟩, flush0_3 _, ?_⟩
    obtain ⟨-, -, -, -, -, -, e0, e1⟩ := idx_zero ⟨0, hN⟩
    rw [mem_blk]
    intro a
    have h0 : (i 0).val < 10 := (i 0).isLt
    have h1 : (i 1).val < 125000 := (i 1).isLt
    match a with
    | ⟨0, _⟩ => show win0_3.index ⟨0, hN⟩ (0 : Fin 2) * 10 ≤ (i 0).val ∧ (i 0).val < win0_3.index ⟨0, hN⟩ (0 : Fin 2) * 10 + 10; rw [e0]; omega
    | ⟨1, _⟩ => show win0_3.index ⟨0, hN⟩ (1 : Fin 2) * 125000 ≤ (i 1).val ∧ (i 1).val < win0_3.index ⟨0, hN⟩ (1 : Fin 2) * 125000 + 125000; rw [e1]; omega

end Cert.KernelIdeal.ProjArray

end
-- ==== Proof.EdgeLaw.lean ====
/-
  The algebra of one edge, on the extended reals, with no program in sight.

  For an edge with gathered node rows `hs hd : Fin 10 → EReal`, weights `w1 w2 : Fin 10 → EReal` and bias `b`, the value is
      (∑ f, w1 f * hs f + ∑ f, w2 f * hd f + b) * [ ∑ f, (hs f - hd f)² < 1/4 ]
  where the bracket is 1 or 0. Two programs spell it differently:
    • one compares the SUM OF SQUARES with 1/4, widens the answer bit to 32 bits and converts it as a signed integer;
    • the other compares the SQUARE ROOT of (0 + the sum of squares) with 1/2, converts the answer bit as an unsigned
      integer, and takes the two products as ONE sum over the twenty entries of the concatenated row.
  They agree because a sum of squares is never negative (also at the infinities: ⊥ · ⊥ = ⊤), the square root is strictly
  increasing on [0, ⊤] with √(1/4) = 1/2, a one-bit word widened with zeros reads the same signed and unsigned, and a
  sum over twenty terms is the sum over the first ten plus the sum over the last ten (addition on the extended reals is
  commutative and associative, so no finiteness is needed anywhere).
-/
import Idealize.ShloMosaic.PureOps.Ideal
import Idealize.ShloMosaic.PureOps.Ideal.Laws

noncomputable section

namespace Cert.EdgeLaw

open Idealize.ShloMosaic

/-! ## The float patterns the two programs spell -/

/-- `0.25` denotes the real 1/4. -/
theorem ofBits_quarter : Ideal.ofBits .f32 0x3E800000#32 = ((1 / 4 : ℝ) : EReal) := by
  simp [Ideal.ofBits, Ideal.ieee, -EReal.coe_mul]; norm_num

/-- `0.5` denotes the real 1/2. -/
theorem ofBits_half : Ideal.ofBits .f32 0x3F000000#32 = ((1 / 2 : ℝ) : EReal) := by
  simp [Ideal.ofBits, Ideal.ieee, -EReal.coe_mul]; norm_num

/-- `1.0` denotes 1. -/
theorem ofBits_one : Ideal.ofBits .f32 0x3F800000#32 = 1 := by
  simp [Ideal.ofBits, Ideal.ieee, -EReal.coe_mul]; norm_num

/-! ## A sum of squares is nonnegative, infinities included -/

theorem mul_self_nonneg (a : EReal) : 0 ≤ a * a := by
  induction a using EReal.rec with
  | bot => rw [EReal.bot_mul_bot]; exact le_top
  | coe r => rw [← EReal.coe_mul]; exact EReal.coe_nonneg.mpr (_root_.mul_self_nonneg r)
  | top => rw [EReal.top_mul_top]; exact le_top

theorem sum_sq_nonneg {n : Nat} (d : Fin n → EReal) : 0 ≤ ∑ k, d k * d k :=
  Finset.sum_nonneg fun k _ => mul_self_nonneg (d k)

/-! ## The threshold: √s < 1/2 exactly when s < 1/4, for 0 ≤ s ≤ ⊤ -/

theorem sqrt_lt_half_iff {s : EReal} (hs : 0 ≤ s) :
    Ideal.sqrt s < ((1 / 2 : ℝ) : EReal) ↔ s < ((1 / 4 : ℝ) : EReal) := by
  induction s using EReal.rec with
  | bot => exact absurd hs (by simp)
  | top =>
    rw [Ideal.sqrt_top]
    exact ⟨fun h => absurd h not_top_lt, fun h => absurd h not_top_lt⟩
  | coe r =>
    have hr : 0 ≤ r := EReal.coe_nonneg.mp hs
    rw [Ideal.sqrt_coe, if_neg (not_lt.mpr hr), EReal.coe_lt_coe_iff, EReal.coe_lt_coe_iff,
      Real.sqrt_lt' (by norm_num : (0 : ℝ) < 1 / 2)]
    norm_num

/-- The two comparison bits are one bit. -/
theorem keep_bit {s : EReal} (hs : 0 ≤ s) :
    Ideal.cmp .olt (Ideal.sqrt (Ideal.ofBits .f32 0x00000000#32 + s)) (Ideal.ofBits .f32 0x3F000000#32)
      = Ideal.cmp .olt s (Ideal.ofBits .f32 0x3E800000#32) := by
  rw [Ideal.ofBits_zero_f32, zero_add, ofBits_half, ofBits_quarter]
  unfold Ideal.cmp
  exact congrArg BitVec.ofBool (decide_eq_decide.mpr (sqrt_lt_half_iff hs))

/-! ## A one-bit word, widened with zeros and read signed, is the bit read unsigned -/

theorem toInt_setWidth_bit : ∀ b : BitVec 1, (b.setWidth 32).toInt = (b.toNat : Int) := by decide

theorem signed_wide_eq_unsigned (b : BitVec 1) :
    ((((b.setWidth 32).toInt : ℝ)) : EReal) = (((b.toNat : ℝ)) : EReal) := by
  rw [toInt_setWidth_bit b]; norm_cast

/-! ## Twenty terms are ten and ten -/

theorem sum_twenty (g : Fin 20 → EReal) :
    ∑ k, g k = (∑ f : Fin 10, g ⟨f.val, by omega⟩) + ∑ f : Fin 10, g ⟨10 + f.val, by omega⟩ := by
  have h := Fin.sum_univ_add (a := 10) (b := 10) (fun k : Fin (10 + 10) => g k)
  exact h

/-! ## The edge's value, and its two spellings -/

/-- The value of one edge. -/
def edgeVal (hs hd w1 w2 : Fin 10 → EReal) (b : EReal) : EReal :=
  ((∑ f, w1 f * hs f) + (∑ f, w2 f * hd f) + b)
    * (((Ideal.cmp .olt (∑ f, (hs f - hd f) * (hs f - hd f)) (Ideal.ofBits .f32 0x3E800000#32)).toNat : ℝ) : EReal)

/-- The spelling with the widened bit converted as a signed integer. -/
theorem edgeVal_signed (hs hd w1 w2 : Fin 10 → EReal) (b : EReal) :
    ((∑ f, w1 f * hs f) + (∑ f, w2 f * hd f) + b)
      * (((((Ideal.cmp .olt (∑ f, (hs f - hd f) * (hs f - hd f)) (Ideal.ofBits .f32 0x3E800000#32)).setWidth 32).toInt : ℝ)) : EReal)
    = edgeVal hs hd w1 w2 b := by
  unfold edgeVal
  rw [signed_wide_eq_unsigned]

/-- The spelling with the square root, the leading zero and the twenty-term product sum; `cat` is the concatenated row and
    `wx` the twenty weights. -/
theorem edgeVal_sqrt (hs hd : Fin 10 → EReal) (cat wx : Fin 20 → EReal) (b : EReal)
    (hcat0 : ∀ f : Fin 10, cat ⟨f.val, by omega⟩ = hs f) (hcat1 : ∀ f : Fin 10, cat ⟨10 + f.val, by omega⟩ = hd f) :
    ((∑ k, cat k * wx k) + b)
      * (((Ideal.cmp .olt (Ideal.sqrt (Ideal.ofBits .f32 0x00000000#32 + ∑ f, (hs f - hd f) * (hs f - hd f)))
            (Ideal.ofBits .f32 0x3F000000#32)).toNat : ℝ) : EReal)
    = edgeVal hs hd (fun f => wx ⟨f.val, by omega⟩) (fun f => wx ⟨10 + f.val, by omega⟩) b := by
  unfold edgeVal
  rw [keep_bit (sum_sq_nonneg fun f => hs f - hd f), sum_twenty]
  simp only [hcat0, hcat1]
  congr 2
  congr 1 <;> exact Finset.sum_congr rfl fun f _ => mul_comm _ _

end Cert.EdgeLaw

end
-- ==== Proof.EdgeValue.lean ====
/-
  The edge kernel's stored value, read at one entry.

  The second kernel body loads two feature-major blocks `hs hd : [10, B]` (the gathered source and destination rows of B
  edges, one edge per column), the two weight rows `w1 w2 : [1, 10]` and the bias `b : [1, 1]`, and stores, for the edge
  in column q,
      (∑ f, w1[0, f] * hs[f, q] + ∑ f, w2[0, f] * hd[f, q] + b[0, 0]) * keep(q),
  where keep(q) is the bit [ ∑ f, (hs[f, q] - hd[f, q])² < 1/4 ] widened to 32 bits and converted as a signed integer:
  `EdgeLaw.edgeVal` of the column. The narrowings to bf16 before the products are the identity on exact values, the products
  into a zero accumulator are plain ten-term sums, and the sum over the feature axis is the column's sum.
-/
import proofs.«110728_j22153441312926_2_alg».proof.Proof.Gen.KernelIdeal.Skeleton
import proofs.«110728_j22153441312926_2_alg».proof.Proof.EdgeLaw
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.EdgeValue

open Cert.KernelIdeal Cert.KernelIdeal.Gen Idealize.ShloMosaic Idealize.ShloMosaic.ValueIdx

/-! ## A product's operand indices: (0, f) on the left, (f, q) on the right -/

theorem lhs0 (i : S1x80000.Idx) (q : dot_S1x10_S10x80000_S1x80000_1_0_0_1_n_n.contr.Idx) : (dot_S1x10_S10x80000_S1x80000_1_0_0_1_n_n.lhsIdx i q 0).val = (i 0).val := by
  unfold DotDims.lhsIdx
  rw [dif_neg (show ¬(0 : Fin S1x10.rank) ∈ dot_S1x10_S10x80000_S1x80000_1_0_0_1_n_n.lhsBatch by decide),
    dif_pos (show (0 : Fin S1x10.rank) ∈ dot_S1x10_S10x80000_S1x80000_1_0_0_1_n_n.lhsNonContracting by decide)]
  rfl
theorem lhs1 (i : S1x80000.Idx) (q : dot_S1x10_S10x80000_S1x80000_1_0_0_1_n_n.contr.Idx) : (dot_S1x10_S10x80000_S1x80000_1_0_0_1_n_n.lhsIdx i q 1).val = (q ⟨0, by decide⟩).val :=
  dot_S1x10_S10x80000_S1x80000_1_0_0_1_n_n.lhsIdx_val_of_single rfl i q
theorem rhs0 (i : S1x80000.Idx) (q : dot_S1x10_S10x80000_S1x80000_1_0_0_1_n_n.contr.Idx) : (dot_S1x10_S10x80000_S1x80000_1_0_0_1_n_n.rhsIdx i q 0).val = (q ⟨0, by decide⟩).val :=
  dot_S1x10_S10x80000_S1x80000_1_0_0_1_n_n.rhsIdx_val_of_single rfl i q
theorem rhs1 (i : S1x80000.Idx) (q : dot_S1x10_S10x80000_S1x80000_1_0_0_1_n_n.contr.Idx) : (dot_S1x10_S10x80000_S1x80000_1_0_0_1_n_n.rhsIdx i q 1).val = (i 1).val := by
  unfold DotDims.rhsIdx
  rw [dif_neg (show ¬(1 : Fin S10x80000.rank) ∈ dot_S1x10_S10x80000_S1x80000_1_0_0_1_n_n.rhsBatch by decide),
    dif_pos (show (1 : Fin S10x80000.rank) ∈ dot_S1x10_S10x80000_S1x80000_1_0_0_1_n_n.rhsNonContracting by decide)]
  rfl

/-- A weight row times a feature-major block, into the zero accumulator, at column q: the ten-term sum. -/
theorem matmul_at (w : FVec Ideal S1x10 .bf16) (h : FVec Ideal S10x80000 .bf16) (u : Fin 1) (q : Fin 80000) :
    matmul dot_S1x10_S10x80000_S1x80000_1_0_0_1_n_n none w h (constant S1x80000 .f32 0x00000000#32) (ix2 u q)
      = ∑ f : Fin 10, w (ix2 u f) * h (ix2 f q) := by
  simp only [matmul]
  rw [Ideal.matmul_constant_zero_apply, ← Equiv.sum_comp (contrEquiv1 dot_S1x10_S10x80000_S1x80000_1_0_0_1_n_n 10 rfl rfl).symm]
  refine Finset.sum_congr rfl fun k _ => ?_
  have hk := contrEquiv1_symm_val dot_S1x10_S10x80000_S1x80000_1_0_0_1_n_n 10 rfl rfl k
  have el : dot_S1x10_S10x80000_S1x80000_1_0_0_1_n_n.lhsIdx (ix2 u q) ((contrEquiv1 dot_S1x10_S10x80000_S1x80000_1_0_0_1_n_n 10 rfl rfl).symm k) = ix2 u k :=
    funext fun a => Fin.ext (by
      match a with
      | ⟨0, _⟩ => exact lhs0 _ _
      | ⟨1, _⟩ => exact (lhs1 _ _).trans hk)
  have er : dot_S1x10_S10x80000_S1x80000_1_0_0_1_n_n.rhsIdx (ix2 u q) ((contrEquiv1 dot_S1x10_S10x80000_S1x80000_1_0_0_1_n_n 10 rfl rfl).symm k) = ix2 k q :=
    funext fun a => Fin.ext (by
      match a with
      | ⟨0, _⟩ => exact (rhs0 _ _).trans hk
      | ⟨1, _⟩ => exact rhs1 _ _)
  rw [el, er]

/-- The one-entry bias broadcast along the columns. -/
theorem bias_at (b : FVec Ideal S1x1 .f32) (u : Fin 1) (q : Fin 80000) :
    broadcastTo S1x80000 b broadcasts_S1x1_S1x80000 (ix2 u q) = b (ix2 (0 : Fin 1) (0 : Fin 1)) := by
  refine broadcastTo_apply b broadcasts_S1x1_S1x80000 (ix2 u q) (ix2 (0 : Fin 1) (0 : Fin 1)) fun ax => ?_
  match ax with
  | ⟨0, _⟩ => rfl
  | ⟨1, _⟩ => rfl

/-- The sum over the feature axis, kept as a one-row array, at column q: the column's sum. -/
theorem colsum_at (d : FVec Ideal S10x80000 .f32) (u : Fin 1) (q : Fin 80000) :
    shapeCast S1x80000 (multiReduction .add [0] S80000 d 0x00000000#32 reduces_S10x80000_S80000 (.inl rfl) rfl)
        shapeCasts_S80000_S1x80000 (ix2 u q)
      = ∑ f : Fin 10, d (ix2 f q) := by
  refine (shapeCast_a_1a_apply _ shapeCasts_S80000_S1x80000 u q).trans ?_
  refine (Ideal.multiReduction_add_single d 0x00000000#32 reduces_S10x80000_S80000 (.inl rfl) rfl (ix1 q)).trans ?_
  refine Finset.sum_congr rfl fun f _ => congrArg d ?_
  funext a
  apply Fin.ext
  match a with
  | ⟨0, _⟩ => rfl
  | ⟨1, _⟩ => rfl

/-- The comparison bit of a column's sum against 1/4, widened to 32 bits and converted as a signed integer. -/
theorem keep_at (d : FVec Ideal S10x80000 .f32) (u : Fin 1) (q : Fin 80000) :
    (sitofp .f32 (extui 32 (cmpf .olt
        (shapeCast S1x80000 (multiReduction .add [0] S80000 d 0x00000000#32 reduces_S10x80000_S80000 (.inl rfl) rfl)
          shapeCasts_S80000_S1x80000)
        (broadcast S1x80000 (Scalar.ofBits (F := Ideal) .f32 0x3E800000#32))) natLt_1_32) : FVec Ideal S1x80000 .f32) (ix2 u q)
      = (((((Ideal.cmp .olt (∑ f : Fin 10, d (ix2 f q)) (Ideal.ofBits .f32 0x3E800000#32)).setWidth 32).toInt : ℝ)) : EReal) := by
  rw [sitofp_apply, extui_apply, cmpf_apply, broadcast_apply, colsum_at]
  rfl

/-- The stored value at column q is the edge's value of that column. -/
theorem pay_apply (x0 x1 : Vec Ideal S10x80000 .f32) (x2 x3 : Vec Ideal S1x10 .f32) (x4 : Vec Ideal S1x1 .f32)
    (u : Fin 1) (q : Fin 80000) :
    k1_pay1 x0 x1 x2 x3 x4 (ix2 u q)
      = Cert.EdgeLaw.edgeVal (fun f => x0 (ix2 f q)) (fun f => x1 (ix2 f q))
          (fun f => x2 (ix2 (0 : Fin 1) f)) (fun f => x3 (ix2 (0 : Fin 1) f)) (x4 (ix2 (0 : Fin 1) (0 : Fin 1))) := by
  have hu : u = (0 : Fin 1) := Fin.ext (by omega)
  subst hu
  unfold k1_pay1
  simp only [shapeCast_self]
  rw [mulf_apply, addf_apply, addf_apply, matmul_at, matmul_at, bias_at, keep_at]
  exact Cert.EdgeLaw.edgeVal_signed _ _ _ _ _

end Cert.KernelIdeal.EdgeValue

end
-- ==== Proof.EdgeArray.lean ====
/-
  Region 1, from blocks to the array.

  The edge kernel runs at 50 grid points. At point t the two feature-major inputs `hs hd : [10, E]` and the output
  `[1, E]` are cut into blocks of B = 80000 columns, block t holding columns B·t … B·t + B − 1; the two weight rows and
  the bias are whole at every point. Column q of block t is column B·t + q of the array, the body's stored value at a
  column is the edge's value of that column (`EdgeValue.pay_apply`), and the fifty blocks tile the output row. So the
  output array ends holding, at (0, e), `EdgeLaw.edgeVal` of column e of the two inputs.
-/
import proofs.«110728_j22153441312926_2_alg».proof.Proof.Gen.KernelIdeal.Frame
import proofs.«110728_j22153441312926_2_alg».proof.Proof.EdgeValue
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.EdgeArray

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block indices at point t: the tiled windows are at column block t, the others at (0, 0). -/
theorem idx_facts : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = t.val :=
  (by decide +kernel : ∀ t : Fin grid1.N, _)

theorem t_lt (t : Fin cfg1.N) : t.val < 50 := by
  have h : t.val < cfg1.N := t.isLt
  have e : cfg1.N = 50 := N_1
  omega

/-- Entry (f, q) of the source block at point t is entry (f, B·t + q) of the array. -/
theorem blk_src (c : Dev nD) (t : Fin cfg1.N) (x : S10x80000.Idx) (k : S10x4000000.Idx)
    (hk0 : (k 0).val = (x 0).val) (hk1 : (k 1).val = 80000 * t.val + (x 1).val) :
    (iblk1 V c 0 t : S10x80000.Idx → Elt Ideal .f32) x = (V c main_v22 : S10x4000000.Idx → Elt Ideal .f32) k := by
  obtain ⟨e0, e1, -⟩ := idx_facts t
  unfold iblk1
  rw [View.read_apply]
  show V c main_v22 _ = V c main_v22 k
  congr 1
  funext a
  apply Fin.ext
  match a with
  | ⟨0, _⟩ => show win1_0.index t (0 : Fin 2) * 10 + 1 * (x 0).val = (k 0).val; rw [e0, hk0]; omega
  | ⟨1, _⟩ => show win1_0.index t (1 : Fin 2) * 80000 + 1 * (x 1).val = (k 1).val; rw [e1, hk1]; omega

/-- The same for the destination block. -/
theorem blk_dst (c : Dev nD) (t : Fin cfg1.N) (x : S10x80000.Idx) (k : S10x4000000.Idx)
    (hk0 : (k 0).val = (x 0).val) (hk1 : (k 1).val = 80000 * t.val + (x 1).val) :
    (iblk1 V c 1 t : S10x80000.Idx → Elt Ideal .f32) x = (V c main_v23 : S10x4000000.Idx → Elt Ideal .f32) k := by
  obtain ⟨-, -, e0, e1, -⟩ := idx_facts t
  unfold iblk1
  rw [View.read_apply]
  show V c main_v23 _ = V c main_v23 k
  congr 1
  funext a
  apply Fin.ext
  match a with
  | ⟨0, _⟩ => show win1_1.index t (0 : Fin 2) * 10 + 1 * (x 0).val = (k 0).val; rw [e0, hk0]; omega
  | ⟨1, _⟩ => show win1_1.index t (1 : Fin 2) * 80000 + 1 * (x 1).val = (k 1).val; rw [e1, hk1]; omega

/-- The source weights' block is the whole row. -/
theorem blk_w1 (c : Dev nD) (t : Fin cfg1.N) :
    (iblk1 V c 2 t : S1x10.Idx → Elt Ideal .f32) = (V c main_v24 : S1x10.Idx → Elt Ideal .f32) := by
  obtain ⟨-, -, -, -, e0, e1, -⟩ := idx_facts t
  funext j
  unfold iblk1
  rw [View.read_apply]
  show V c main_v24 _ = V c main_v24 j
  congr 1
  funext a
  apply Fin.ext
  match a with
  | ⟨0, _⟩ => show win1_2.index t (0 : Fin 2) * 1 + 1 * (j 0).val = (j 0).val; rw [e0]; omega
  | ⟨1, _⟩ => show win1_2.index t (1 : Fin 2) * 10 + 1 * (j 1).val = (j 1).val; rw [e1]; omega

/-- The destination weights' block is the whole row. -/
theorem blk_w2 (c : Dev nD) (t : Fin cfg1.N) :
    (iblk1 V c 3 t : S1x10.Idx → Elt Ideal .f32) = (V c main_v25 : S1x10.Idx → Elt Ideal .f32) := by
  obtain ⟨-, -, -, -, -, -, e0, e1, -⟩ := idx_facts t
  funext j
  unfold iblk1
  rw [View.read_apply]
  show V c main_v25 _ = V c main_v25 j
  congr 1
  funext a
  apply Fin.ext
  match a with
  | ⟨0, _⟩ => show win1_3.index t (0 : Fin 2) * 1 + 1 * (j 0).val = (j 0).val; rw [e0]; omega
  | ⟨1, _⟩ => show win1_3.index t (1 : Fin 2) * 10 + 1 * (j 1).val = (j 1).val; rw [e1]; omega

/-- The bias' block is the whole one-entry array. -/
theorem blk_bx (c : Dev nD) (t : Fin cfg1.N) :
    (iblk1 V c 4 t : S1x1.Idx → Elt Ideal .f32) = (V c main_v26 : S1x1.Idx → Elt Ideal .f32) := by
  obtain ⟨-, -, -, -, -, -, -, -, e0, e1, -⟩ := idx_facts t
  funext j
  unfold iblk1
  rw [View.read_apply]
  show V c main_v26 _ = V c main_v26 j
  congr 1
  funext a
  apply Fin.ext
  match a with
  | ⟨0, _⟩ => show win1_4.index t (0 : Fin 2) * 1 + 1 * (j 0).val = (j 0).val; rw [e0]; omega
  | ⟨1, _⟩ => show win1_4.index t (1 : Fin 2) * 1 + 1 * (j 1).val = (j 1).val; rw [e1]; omega

/-- The edge's value of column `e` of two feature-major arrays. -/
def col (hs hd : S10x4000000.Idx → EReal) (w1 w2 : S1x10.Idx → EReal) (b : S1x1.Idx → EReal) (e : Fin 4000000) : EReal :=
  Cert.EdgeLaw.edgeVal (fun f => hs (ix2 f e)) (fun f => hd (ix2 f e))
    (fun f => w1 (ix2 (0 : Fin 1) f)) (fun f => w2 (ix2 (0 : Fin 1) f)) (b (ix2 (0 : Fin 1) (0 : Fin 1)))

/-- The array region 1 leaves: the one-row array of the columns' edge values. -/
def row (c : Dev nD) : S1x4000000.Idx → Elt Ideal .f32 :=
  fun i => col (V c main_v22) (V c main_v23) (V c main_v24) (V c main_v25) (V c main_v26) ⟨(i 1).val, (i 1).isLt⟩

theorem row_apply (c : Dev nD) (u : Fin 1) (e : Fin 4000000) :
    row V c (ix2 u e) = col (V c main_v22) (V c main_v23) (V c main_v24) (V c main_v25) (V c main_v26) e := rfl

/-- WHAT POINT t WRITES BACK is block t of `row`. -/
theorem flushed_eq (c : Dev nD) (t : Fin cfg1.N) :
    (dat1 V c).flushed 5 t = ((cfg1.win 5).blk t).view.read (Elt Ideal) (row V c) := by
  obtain ⟨-, -, -, -, -, -, -, -, -, -, e0, e1⟩ := idx_facts t
  have ht := t_lt t
  show (cfg1.win 5).cut (grid1.coords t) ((dat1 V c).after 5 t) = _
  rw [after1_5]
  unfold out1_5
  rw [View.canon_unit_zero hz]
  simp only [View.ld_unit_zero (S := S10x80000) hz, View.ld_unit_zero (S := S1x10) hz, View.ld_unit_zero (S := S1x1) hz]
  rw [blk_w1 V c t, blk_w2 V c t, blk_bx V c t]
  funext j
  obtain ⟨u, q, rfl⟩ : ∃ (u : Fin 1) (q : Fin 80000), j = ix2 u q := ⟨j 0, j 1, eq_ix2 j⟩
  rw [View.read_apply]
  refine (Cert.KernelIdeal.EdgeValue.pay_apply _ _ _ _ _ u q).trans ?_
  have hq := q.isLt
  have hemb : (⟨((((cfg1.win 5).blk t).view.emb (ix2 u q)) 1).val, ((((cfg1.win 5).blk t).view.emb (ix2 u q)) 1).isLt⟩ : Fin 4000000)
      = ⟨80000 * t.val + q.val, by omega⟩ := by
    apply Fin.ext
    show win1_5.index t (1 : Fin 2) * 80000 + 1 * q.val = 80000 * t.val + q.val
    rw [e1]; omega
  show _ = col (V c main_v22) (V c main_v23) (V c main_v24) (V c main_v25) (V c main_v26) _
  rw [hemb]
  unfold col
  congr 1
  · funext f
    exact blk_src V c t (ix2 f q) (ix2 f ⟨80000 * t.val + q.val, by omega⟩) rfl rfl
  · funext f
    exact blk_dst V c t (ix2 f q) (ix2 f ⟨80000 * t.val + q.val, by omega⟩) rfl rfl

/-- An index of the array is in point t's block iff each coordinate is in the block's range on its axis. -/
theorem mem_blk (t : Fin cfg1.N) (i : S1x4000000.Idx) :
    i ∈ ((cfg1.win 5).blk t).view.set ↔ ∀ a : Fin 2, win1_5.index t a * S1x80000.size a ≤ (i a).val ∧ (i a).val < win1_5.index t a * S1x80000.size a + S1x80000.size a := by
  show i ∈ ((View.whole main_v27).slice (win1_5.rect t)).set ↔ _
  rw [View.set_slice_whole, Rect.mem_set_unit]
  exact Iff.rfl

/-- THE ARRAY after region 1: column e is in block e / B. -/
theorem final (c : Dev nD) : (dat1 V c).arrAt 5 cfg1.N = row V c :=
  (dat1 V c).arrAt_eq_of_cover 5 (row V c) (fun t _ => flushed_eq V c t) fun i => by
    have h0 : (i 0).val < 1 := (i 0).isLt
    have h1 : (i 1).val < 4000000 := (i 1).isLt
    have hN : (i 1).val / 80000 < cfg1.N := by rw [show cfg1.N = 50 from N_1]; omega
    refine ⟨⟨(i 1).val / 80000, hN⟩, flush1_5 _, ?_⟩
    obtain ⟨-, -, -, -, -, -, -, -, -, -, e0, e1⟩ := idx_facts ⟨(i 1).val / 80000, hN⟩
    rw [mem_blk]
    intro a
    match a with
    | ⟨0, _⟩ =>
      show win1_5.index ⟨(i 1).val / 80000, hN⟩ (0 : Fin 2) * 1 ≤ (i 0).val ∧ (i 0).val < win1_5.index ⟨(i 1).val / 80000, hN⟩ (0 : Fin 2) * 1 + 1
      rw [e0]; omega
    | ⟨1, _⟩ =>
      show win1_5.index ⟨(i 1).val / 80000, hN⟩ (1 : Fin 2) * 80000 ≤ (i 1).val ∧ (i 1).val < win1_5.index ⟨(i 1).val / 80000, hN⟩ (1 : Fin 2) * 80000 + 80000
      rw [e1]
      show (i 1).val / 80000 * 80000 ≤ (i 1).val ∧ (i 1).val < (i 1).val / 80000 * 80000 + 80000
      omega

end Cert.KernelIdeal.EdgeArray

end
-- ==== Proof.EdgeSpec.lean ====
/-
  The result array, as one function of the two gathered tables.

  `gs gd : [E, 10]` hold, row by row, the node features gathered for each edge's source and destination; `wx : [1, 20]`
  are the twenty weights (ten for the source row, ten for the destination row) and `bx : [1]` the bias. Entry (e, 0) of
  the result is `EdgeLaw.edgeVal` of edge e's two rows.
-/
import proofs.«110728_j22153441312926_2_alg».proof.Proof.EdgeLaw
import Idealize.ShloMosaic.Lib.ValueIdx

noncomputable section

namespace Cert.EdgeSpec

open Idealize.ShloMosaic Idealize.ShloMosaic.ValueIdx

/-- The value of edge `e`. -/
def edge (gs gd : (⟨2, ![4000000, 10]⟩ : Shape).Idx → EReal) (wx : (⟨2, ![1, 20]⟩ : Shape).Idx → EReal)
    (bx : (⟨1, ![1]⟩ : Shape).Idx → EReal) (e : Fin 4000000) : EReal :=
  Cert.EdgeLaw.edgeVal (fun f => gs (ix2 e f)) (fun f => gd (ix2 e f))
    (fun f => wx (ix2 (0 : Fin 1) (⟨f.val, by omega⟩ : Fin 20)))
    (fun f => wx (ix2 (0 : Fin 1) (⟨10 + f.val, by omega⟩ : Fin 20)))
    (bx (ix1 (0 : Fin 1)))

/-- The result array: one column, one row per edge. -/
def out (gs gd : (⟨2, ![4000000, 10]⟩ : Shape).Idx → EReal) (wx : (⟨2, ![1, 20]⟩ : Shape).Idx → EReal)
    (bx : (⟨1, ![1]⟩ : Shape).Idx → EReal) : (⟨2, ![4000000, 1]⟩ : Shape).Idx → EReal :=
  fun i => edge gs gd wx bx ⟨(i 0).val, (i 0).isLt⟩

theorem out_apply (gs gd : (⟨2, ![4000000, 10]⟩ : Shape).Idx → EReal) (wx : (⟨2, ![1, 20]⟩ : Shape).Idx → EReal)
    (bx : (⟨1, ![1]⟩ : Shape).Idx → EReal) (e : Fin 4000000) (u : Fin 1) :
    out gs gd wx bx (ix2 e u) = edge gs gd wx bx e := rfl

end Cert.EdgeSpec

end
-- ==== Proof.KernelTables.lean ====
/-
  The kernel program's host chains between its two regions, named once.

  • `normIdx`: one row of edge endpoints as gather start indices — a negative index has the node count added.
  • `nodeTable`: the projection's stored value (feature-major) of the transposed points, the weights and the bias column,
    transposed back to node-major.
  • `gathered`: the node table's rows gathered for one row of edge endpoints.
-/
import proofs.«110728_j22153441312926_2_alg».proof.Proof.Gen.KernelIdeal.Skeleton
import Idealize.ShloMosaic.PureOps.Ideal

noncomputable section

open Idealize.ShloMosaic

namespace Cert.KernelIdeal.Tables

open Cert.KernelIdeal Cert.KernelIdeal.Gen

def normIdx (row : (⟨S1x4000000, .i32⟩ : BufTy).Contents (Elt Ideal)) : (⟨S4000000x1, .i32⟩ : BufTy).Contents (Elt Ideal) :=
  broadcastInDim S4000000x1 ![0] bcast_S4000000_S4000000x1_0
    (select (cmpi .slt (shapeCast S4000000 row shapeCasts_S1x4000000_S4000000) (broadcastInDim S4000000 ![] bcast_S_S4000000 (constantI S_ 32 0#32)))
      (addi (shapeCast S4000000 row shapeCasts_S1x4000000_S4000000) (broadcastInDim S4000000 ![] bcast_S_S4000000 (constantI S_ 32 125000#32)))
      (shapeCast S4000000 row shapeCasts_S1x4000000_S4000000))

def nodeTable (x : (⟨S125000x3, .f32⟩ : BufTy).Contents (Elt Ideal)) (w : (⟨S10x3, .f32⟩ : BufTy).Contents (Elt Ideal))
    (b : (⟨S10, .f32⟩ : BufTy).Contents (Elt Ideal)) : (⟨S125000x10, .f32⟩ : BufTy).Contents (Elt Ideal) :=
  transpose S125000x10 [1, 0]
    (k0_pay1 (transpose S3x125000 [1, 0] x transposes_S125000x3_S3x125000_1_0) w (shapeCast S10x1 b shapeCasts_S10_S10x1))
    transposes_S10x125000_S125000x10_1_0

def gathered (tab : (⟨S125000x10, .f32⟩ : BufTy).Contents (Elt Ideal)) (row : (⟨S1x4000000, .i32⟩ : BufTy).Contents (Elt Ideal)) :
    (⟨S4000000x10, .f32⟩ : BufTy).Contents (Elt Ideal) :=
  Host.gather gather_S125000x10_S4000000x1_S4000000x10_1_0_n_n_0_1_110 tab (normIdx row)

end Cert.KernelIdeal.Tables

end
-- ==== Proof.Boundaries.lean ====
/-
  The kernel program's result, read through its boundaries.

  Between the launch and the return the buffers pass five boundaries. Read backwards from the result:
    • the result is the transpose of region 1's output row;
    • region 1's output row holds, at column e, the edge's value of column e of its two feature-major inputs, of the two
      halves of the weight row and of the bias (EdgeArray);
    • those inputs are the transposes of the two gathered tables: the node table gathered at the normalized source and
      destination indices (a negative index has the node count added), the weight halves are slices, the bias a reshape;
    • the node table is the transpose of region 0's output (ProjArray), which is the projection's stored value of the
      transposed points, the weights and the bias column.
  So the result is the specification (EdgeSpec.out) of the kernel program's own two gathered tables.
-/
import proofs.«110728_j22153441312926_2_alg».proof.Proof.Gen.KernelIdeal.Frame
import proofs.«110728_j22153441312926_2_alg».proof.Proof.ProjArray
import proofs.«110728_j22153441312926_2_alg».proof.Proof.EdgeArray
import proofs.«110728_j22153441312926_2_alg».proof.Proof.EdgeSpec
import proofs.«110728_j22153441312926_2_alg».proof.Proof.KernelTables
import Idealize.ShloMosaic.Lib.StableHlo.Run
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo

namespace Cert.KernelIdeal.Boundaries

open Cert.KernelIdeal Cert.KernelIdeal.Gen Cert.KernelIdeal.Tables

variable (m : (ℓ : Loc nD τ sig) → Buf (Elt Ideal) ℓ) (ρ : Dev nD → PrngReg)

/-! ## After the first host stretch -/

theorem W1_v0 (c : Dev nD) : W1 m ρ c (Proc.devRef .tc main_v0)
    = transpose S3x125000 [1, 0] (m ((c : Thread nD τ).loc main_arg0)) transposes_S125000x3_S3x125000_1_0 := by
  show StableHlo.after hostOps0 (W0 m ρ c) (Proc.devRef .tc main_v0) = _
  dsimp only [hostOps0]
  after_results

theorem W1_v1 (c : Dev nD) : W1 m ρ c (Proc.devRef .tc main_v1)
    = shapeCast S10x1 (m ((c : Thread nD τ).loc main_arg3)) shapeCasts_S10_S10x1 := by
  show StableHlo.after hostOps0 (W0 m ρ c) (Proc.devRef .tc main_v1) = _
  dsimp only [hostOps0]
  after_results
  rfl

theorem W1_arg (c : Dev nD) (b : Ref sig .tc) (hb : b ≠ main_v0 ∧ b ≠ main_v1) :
    W1 m ρ c (Proc.devRef .tc b) = m ((c : Thread nD τ).loc b) := by
  show StableHlo.after hostOps0 (W0 m ρ c) (Proc.devRef .tc b) = _
  refine (StableHlo.after_of_forall_not_mem (b := Proc.devRef .tc b) _ _ (List.forall_iff_forall_mem.mp ?_)).trans rfl
  simp only [hostOps0, List.Forall, StableHlo.unary_writes, StableHlo.reshape_writes, Finset.mem_singleton]
  exact ⟨StableHlo.devRef_ne_of_ne hb.1, StableHlo.devRef_ne_of_ne hb.2⟩

/-! ## After region 0 -/

theorem W2_v2 (c : Dev nD) : W2 m ρ c (Proc.devRef .tc main_v2)
    = k0_pay1 (transpose S3x125000 [1, 0] (m ((c : Thread nD τ).loc main_arg0)) transposes_S125000x3_S3x125000_1_0)
        (m ((c : Thread nD τ).loc main_arg2)) (shapeCast S10x1 (m ((c : Thread nD τ).loc main_arg3)) shapeCasts_S10_S10x1) := by
  refine ((W2_arr m ρ c 3).trans (Cert.KernelIdeal.ProjArray.final (V1 m ρ) c)).trans ?_
  show k0_pay1 (W1 m ρ c (Proc.devRef .tc main_v0)) (W1 m ρ c (Proc.devRef .tc main_arg2)) (W1 m ρ c (Proc.devRef .tc main_v1)) = _
  rw [W1_v0, W1_v1, W1_arg m ρ c main_arg2 (by decide)]

theorem W2_arg (c : Dev nD) (b : Ref sig .tc) (hb : b ≠ main_v0 ∧ b ≠ main_v1) (hb' : ∀ w, Pipeline.arrRef spec0 w ≠ b) :
    W2 m ρ c (Proc.devRef .tc b) = m ((c : Thread nD τ).loc b) :=
  (W2_of_ne m ρ c b hb').trans (W1_arg m ρ c b hb)

/-! ## After the second host stretch: region 1's five input arrays -/

/-- The argument arrays the second stretch reads are as launched. -/
theorem W2_arg1 (c : Dev nD) : W2 m ρ c (Proc.devRef .tc main_arg1) = m ((c : Thread nD τ).loc main_arg1) :=
  W2_arg m ρ c main_arg1 (by decide) (by decide)
theorem W2_arg6 (c : Dev nD) : W2 m ρ c (Proc.devRef .tc main_arg6) = m ((c : Thread nD τ).loc main_arg6) :=
  W2_arg m ρ c main_arg6 (by decide) (by decide)
theorem W2_arg7 (c : Dev nD) : W2 m ρ c (Proc.devRef .tc main_arg7) = m ((c : Thread nD τ).loc main_arg7) :=
  W2_arg m ρ c main_arg7 (by decide) (by decide)

/-- The node table as the second stretch makes it. -/
theorem node_eq (c : Dev nD) :
    transpose S125000x10 [1, 0] (W2 m ρ c (Proc.devRef .tc main_v2)) transposes_S10x125000_S125000x10_1_0
      = nodeTable (m ((c : Thread nD τ).loc main_arg0)) (m ((c : Thread nD τ).loc main_arg2)) (m ((c : Thread nD τ).loc main_arg3)) := by
  rw [W2_v2]; rfl

/-- The source block array: the gathered source rows, feature-major. -/
theorem W3_v22 (c : Dev nD) : W3 m ρ c (Proc.devRef .tc main_v22)
    = transpose S10x4000000 [1, 0]
        (gathered (nodeTable (m ((c : Thread nD τ).loc main_arg0)) (m ((c : Thread nD τ).loc main_arg2)) (m ((c : Thread nD τ).loc main_arg3)))
          (extractStridedSlice S1x4000000 ![0, 0] (m ((c : Thread nD τ).loc main_arg1)) slices_S2x4000000_S1x4000000_0_0))
        transposes_S4000000x10_S10x4000000_1_0 := by
  rw [← node_eq m ρ c, ← W2_arg1 m ρ c]
  show StableHlo.after hostOps1 (W2 m ρ c) (Proc.devRef .tc main_v22) = _
  dsimp only [hostOps1]
  after_results
  rfl

/-- The destination block array: the gathered destination rows, feature-major. -/
theorem W3_v23 (c : Dev nD) : W3 m ρ c (Proc.devRef .tc main_v23)
    = transpose S10x4000000 [1, 0]
        (gathered (nodeTable (m ((c : Thread nD τ).loc main_arg0)) (m ((c : Thread nD τ).loc main_arg2)) (m ((c : Thread nD τ).loc main_arg3)))
          (extractStridedSlice S1x4000000 ![1, 0] (m ((c : Thread nD τ).loc main_arg1)) slices_S2x4000000_S1x4000000_1_0))
        transposes_S4000000x10_S10x4000000_1_0 := by
  rw [← node_eq m ρ c, ← W2_arg1 m ρ c]
  show StableHlo.after hostOps1 (W2 m ρ c) (Proc.devRef .tc main_v23) = _
  dsimp only [hostOps1]
  after_results
  rfl

/-- The two halves of the weight row and the bias as a [1, 1] array. -/
theorem W3_v24 (c : Dev nD) : W3 m ρ c (Proc.devRef .tc main_v24)
    = extractStridedSlice S1x10 ![0, 0] (m ((c : Thread nD τ).loc main_arg6)) slices_S1x20_S1x10_0_0 := by
  rw [← W2_arg6 m ρ c]
  show StableHlo.after hostOps1 (W2 m ρ c) (Proc.devRef .tc main_v24) = _
  dsimp only [hostOps1]
  after_results
theorem W3_v25 (c : Dev nD) : W3 m ρ c (Proc.devRef .tc main_v25)
    = extractStridedSlice S1x10 ![0, 10] (m ((c : Thread nD τ).loc main_arg6)) slices_S1x20_S1x10_0_10 := by
  rw [← W2_arg6 m ρ c]
  show StableHlo.after hostOps1 (W2 m ρ c) (Proc.devRef .tc main_v25) = _
  dsimp only [hostOps1]
  after_results
theorem W3_v26 (c : Dev nD) : W3 m ρ c (Proc.devRef .tc main_v26)
    = shapeCast S1x1 (m ((c : Thread nD τ).loc main_arg7)) shapeCasts_S1_S1x1 := by
  rw [← W2_arg7 m ρ c]
  show StableHlo.after hostOps1 (W2 m ρ c) (Proc.devRef .tc main_v26) = _
  dsimp only [hostOps1]
  after_results
  rfl

/-! ## After region 1, and the result -/

theorem W4_v27 (c : Dev nD) : W4 m ρ c (Proc.devRef .tc main_v27) = Cert.KernelIdeal.EdgeArray.row (V3 m ρ) c :=
  (W4_arr m ρ c 5).trans (Cert.KernelIdeal.EdgeArray.final (V3 m ρ) c)

theorem W5_v28 (c : Dev nD) : W5 m ρ c (Proc.devRef .tc main_v28)
    = transpose S4000000x1 [1, 0] (W4 m ρ c (Proc.devRef .tc main_v27)) transposes_S1x4000000_S4000000x1_1_0 := by
  show StableHlo.after hostOps2 (W4 m ρ c) (Proc.devRef .tc main_v28) = _
  dsimp only [hostOps2]
  after_results

end Cert.KernelIdeal.Boundaries

end
-- ==== Proof.ResultValue.lean ====
/-
  The kernel program's result is the specification of its own two gathered tables.

  The result is the transpose of region 1's output row; the row holds at column e the edge's value of column e of the
  two transposed gathered tables, of the two slices of the weight row and of the bias cast to [1, 1]. Read at an entry,
  the transposes swap the coordinates back, slice j of the weight row reads entry 10·j + f, and the cast reads the
  bias' one entry: `EdgeSpec.out` at (e, 0).
-/
import proofs.«110728_j22153441312926_2_alg».proof.Proof.Boundaries

set_option maxRecDepth 16384

noncomputable section

open Idealize.ShloMosaic Idealize.ShloMosaic.TcCoe Idealize.SL.Sem Idealize.ShloMosaic.ValueIdx Idealize.ShloMosaic.StableHlo

namespace Cert.KernelIdeal.ResultValue

open Cert.KernelIdeal Cert.KernelIdeal.Gen Cert.KernelIdeal.Tables Cert.KernelIdeal.Boundaries

variable (m : (ℓ : Loc nD τ sig) → Buf (Elt Ideal) ℓ) (ρ : Dev nD → PrngReg)

/-- A one-entry vector cast to [1, 1] reads its entry. -/
theorem one_cast_at {α : Type} (b : (⟨1, ![1]⟩ : Shape).Idx → α) (h : (⟨1, ![1]⟩ : Shape).ShapeCasts ⟨2, ![1, 1]⟩)
    (u v : Fin 1) : shapeCast ⟨2, ![1, 1]⟩ b h (ix2 u v) = b (ix1 (0 : Fin 1)) :=
  shapeCast_apply b h _ _ (by
    rw [Shape.rowMajor_val_two, Shape.rowMajor_val_one]
    have := u.isLt; have := v.isLt
    show 0 = u.val * 1 + v.val
    omega)

/-- The edge's value of column e of the two transposed tables is the edge's value of row e of the tables. -/
theorem col_eq_edge (gs gd : (⟨S4000000x10, .f32⟩ : BufTy).Contents (Elt Ideal))
    (wx : (⟨S1x20, .f32⟩ : BufTy).Contents (Elt Ideal)) (bx : (⟨S1, .f32⟩ : BufTy).Contents (Elt Ideal)) (e : Fin 4000000) :
    Cert.KernelIdeal.EdgeArray.col
        (transpose S10x4000000 [1, 0] gs transposes_S4000000x10_S10x4000000_1_0)
        (transpose S10x4000000 [1, 0] gd transposes_S4000000x10_S10x4000000_1_0)
        (extractStridedSlice S1x10 ![0, 0] wx slices_S1x20_S1x10_0_0)
        (extractStridedSlice S1x10 ![0, 10] wx slices_S1x20_S1x10_0_10)
        (shapeCast S1x1 bx shapeCasts_S1_S1x1) e
      = Cert.EdgeSpec.edge gs gd wx bx e := by
  unfold Cert.KernelIdeal.EdgeArray.col Cert.EdgeSpec.edge
  congr 1
  · funext f; exact transpose_ix2_apply gs _ f e
  · funext f; exact transpose_ix2_apply gd _ f e
  · funext f
    exact slice2_axis1_apply 0 wx slices_S1x20_S1x10_0_0 (0 : Fin 1) f (⟨f.val, by omega⟩ : Fin 20) (by show f.val = 0 + f.val; omega)
  · funext f
    exact slice2_axis1_apply 10 wx slices_S1x20_S1x10_0_10 (0 : Fin 1) f (⟨10 + f.val, by omega⟩ : Fin 20) rfl
  · exact one_cast_at bx _ _ _

/-- Region 1's row at column e, over its five input arrays. -/
theorem row_at (c : Dev nD) (u : Fin 1) (e : Fin 4000000) :
    (W4 m ρ c (Proc.devRef .tc main_v27) : S1x4000000.Idx → Elt Ideal .f32) (ix2 u e)
      = Cert.KernelIdeal.EdgeArray.col (W3 m ρ c (Proc.devRef .tc main_v22)) (W3 m ρ c (Proc.devRef .tc main_v23))
          (W3 m ρ c (Proc.devRef .tc main_v24)) (W3 m ρ c (Proc.devRef .tc main_v25)) (W3 m ρ c (Proc.devRef .tc main_v26)) e := by
  rw [W4_v27]
  exact Cert.KernelIdeal.EdgeArray.row_apply (V3 m ρ) c u e

/-- THE RESULT. -/
theorem result_eq (c : Dev nD) : W5 m ρ c (Proc.devRef .tc main_v28)
    = Cert.EdgeSpec.out
        (gathered (nodeTable (m ((c : Thread nD τ).loc main_arg0)) (m ((c : Thread nD τ).loc main_arg2)) (m ((c : Thread nD τ).loc main_arg3)))
          (extractStridedSlice S1x4000000 ![0, 0] (m ((c : Thread nD τ).loc main_arg1)) slices_S2x4000000_S1x4000000_0_0))
        (gathered (nodeTable (m ((c : Thread nD τ).loc main_arg0)) (m ((c : Thread nD τ).loc main_arg2)) (m ((c : Thread nD τ).loc main_arg3)))
          (extractStridedSlice S1x4000000 ![1, 0] (m ((c : Thread nD τ).loc main_arg1)) slices_S2x4000000_S1x4000000_1_0))
        (m ((c : Thread nD τ).loc main_arg6)) (m ((c : Thread nD τ).loc main_arg7)) := by
  rw [W5_v28]
  funext i
  obtain ⟨e, u, rfl⟩ : ∃ (e : Fin 4000000) (u : Fin 1), i = ix2 e u := ⟨i 0, i 1, eq_ix2 i⟩
  refine (transpose_ix2_apply _ _ e u).trans ?_
  rw [row_at, W3_v22, W3_v23, W3_v24, W3_v25, W3_v26, Cert.EdgeSpec.out_apply]
  exact col_eq_edge _ _ _ _ e

end Cert.KernelIdeal.ResultValue

end
-- ==== Proof.RefValue.lean ====
/-
  The reference computes the specification.

  Read one operation at a time, entry (e, 0) of the reference's result is
      (∑ k < 20, cat[e, k] * wxᵀ[k, 0] + bx[0]) * [ √(0 + ∑ f, (gs[e, f] - gd[e, f])²) < 1/2 ]
  where `cat` is the two gathered tables joined along the feature axis, so that cat[e, k] is gs[e, k] for k < 10 and
  gd[e, k - 10] otherwise, and the bracket is the comparison bit converted as an unsigned integer. By `EdgeLaw.edgeVal_sqrt`
  this is the edge's value.
-/
import proofs.«110728_j22153441312926_2_alg».proof.Proof.Gen.ReferenceIdeal.Read
import proofs.«110728_j22153441312926_2_alg».proof.Proof.EdgeSpec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The composed index maps of the operations, as coordinates -/

theorem e_l46 (e : Fin 4000000) (u : Fin 1) (k : Fin 20) : lidx_main_v46 (ix2 e u) k = ix2 e k :=
  funext fun a => Fin.ext (by match a with | ⟨0, _⟩ => rfl | ⟨1, _⟩ => rfl)
theorem e_r46 (e : Fin 4000000) (u : Fin 1) (k : Fin 20) : idx_main_v45 (ridx_main_v46 (ix2 e u) k) = ix2 (0 : Fin 1) k :=
  funext fun a => Fin.ext (by match a with | ⟨0, _⟩ => (show u.val = 0; omega) | ⟨1, _⟩ => rfl)
theorem e_48 (e : Fin 4000000) (u : Fin 1) : idx_main_v47 (idx_main_v48 (ix2 e u)) = ix1 (0 : Fin 1) :=
  funext fun a => Fin.ext (by match a with | ⟨0, _⟩ => rfl)
theorem e_50 (e : Fin 4000000) (u : Fin 1) : idx_main_v50 (ix2 e u) = ix1 e :=
  funext fun a => Fin.ext (by match a with | ⟨0, _⟩ => rfl)
theorem e_c1 (e : Fin 4000000) (k : Fin 10) : idx_main_call0_v1 (ix1 e) k = ix2 e k :=
  funext fun a => Fin.ext (by match a with | ⟨0, _⟩ => rfl | ⟨1, _⟩ => rfl)

/-! ## The joined row: its first ten entries are the source's, its last ten the destination's -/

section
variable (x0 : (⟨S125000x3, .f32⟩ : BufTy).Contents (Elt Ideal)) (x1 : (⟨S2x4000000, .i32⟩ : BufTy).Contents (Elt Ideal))
  (x2 : (⟨S10x3, .f32⟩ : BufTy).Contents (Elt Ideal)) (x3 : (⟨S10, .f32⟩ : BufTy).Contents (Elt Ideal))
  (x6 : (⟨S1x20, .f32⟩ : BufTy).Contents (Elt Ideal)) (x7 : (⟨S1, .f32⟩ : BufTy).Contents (Elt Ideal))

theorem cat_left (e : Fin 4000000) (f : Fin 10) :
    val_main_v44 (F := Ideal) x0 x1 x2 x3 (ix2 e (⟨f.val, by omega⟩ : Fin 20)) = val_main_v32 (F := Ideal) x0 x1 x2 x3 (ix2 e f) := by
  unfold val_main_v44
  exact concatenate_pair_apply_left 1 _ _ concatenates_S4000000x10_S4000000x10_S4000000x20_d1
    (ix2 e (⟨f.val, by omega⟩ : Fin 20)) rfl (ix2 e f) (fun b => by match b with | ⟨0, _⟩ => rfl | ⟨1, _⟩ => rfl)

theorem cat_right (e : Fin 4000000) (f : Fin 10) :
    val_main_v44 (F := Ideal) x0 x1 x2 x3 (ix2 e (⟨10 + f.val, by omega⟩ : Fin 20)) = val_main_v39 (F := Ideal) x0 x1 x2 x3 (ix2 e f) := by
  unfold val_main_v44
  exact concatenate_pair_apply_right 1 _ _ concatenates_S4000000x10_S4000000x10_S4000000x20_d1
    (ix2 e (⟨10 + f.val, by omega⟩ : Fin 20)) rfl rfl (ix2 e f)
    (fun b hb => by match b with | ⟨0, _⟩ => rfl | ⟨1, _⟩ => exact absurd rfl hb)
    (by show f.val + 10 = 10 + f.val; omega)

/-- The reference's result is the specification of its two gathered tables. -/
theorem out_eq :
    val_main_v52 (F := Ideal) x0 x1 x2 x3 x6 x7
      = Cert.EdgeSpec.out (val_main_v32 (F := Ideal) x0 x1 x2 x3) (val_main_v39 (F := Ideal) x0 x1 x2 x3) x6 x7 := by
  funext i
  obtain ⟨e, u, rfl⟩ : ∃ (e : Fin 4000000) (u : Fin 1), i = ix2 e u := ⟨i 0, i 1, eq_ix2 i⟩
  rw [Cert.EdgeSpec.out_apply]
  unfold Cert.EdgeSpec.edge
  rw [val_main_v52_apply, val_main_v49_apply, val_main_v51_apply, val_main_v50_apply, val_main_v43_apply,
    val_main_v41_apply, val_main_v42_apply, val_main_cst_6_apply, val_main_v46_apply, val_main_v48_apply,
    val_main_v47_apply, e_48, e_50, val_main_call0_v1_apply, val_main_call0_cst_apply]
  simp only [e_l46, e_c1, val_main_v45_apply, e_r46, val_main_call0_v0_apply, val_main_v40_apply]
  refine Eq.trans ?_ (Cert.EdgeLaw.edgeVal_sqrt (fun f => val_main_v32 (F := Ideal) x0 x1 x2 x3 (ix2 e f))
    (fun f => val_main_v39 (F := Ideal) x0 x1 x2 x3 (ix2 e f))
    (fun k => val_main_v44 (F := Ideal) x0 x1 x2 x3 (ix2 e k)) (fun k => x6 (ix2 (0 : Fin 1) k)) (x7 (ix1 (0 : Fin 1)))
    (cat_left x0 x1 x2 x3 e) (cat_right x0 x1 x2 x3 e))
  rfl

end

end Cert.ReferenceIdeal.RefValue

end
-- ==== Proof.ProjValue.lean ====
/-
  The node projection's stored value, read at one entry.

  The first kernel body loads the transposed points `xt : [3, N]`, the weights `w : [10, 3]` and the bias column
  `b : [10, 1]`, and stores logistic(w · xt + b) with the bias broadcast along the nodes. At entry (f, n):
      logistic( ∑ k < 3, w[f, k] * xt[k, n]  +  b[f, 0] ).
  The matrix product into a zero accumulator is the plain three-term sum; the casts to the same shape are the identity.
-/
import proofs.«110728_j22153441312926_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.ProjValue

open Cert.KernelIdeal Cert.KernelIdeal.Gen Idealize.ShloMosaic Idealize.ShloMosaic.ValueIdx

/-! ## The product's operand indices: (f, k) on the left, (k, n) on the right -/

theorem lhs0 (i : S10x125000.Idx) (q : dot_S10x3_S3x125000_S10x125000_1_0_0_1_n_n.contr.Idx) :
    (dot_S10x3_S3x125000_S10x125000_1_0_0_1_n_n.lhsIdx i q 0).val = (i 0).val := by
  unfold DotDims.lhsIdx
  rw [dif_neg (show ¬(0 : Fin S10x3.rank) ∈ dot_S10x3_S3x125000_S10x125000_1_0_0_1_n_n.lhsBatch by decide),
    dif_pos (show (0 : Fin S10x3.rank) ∈ dot_S10x3_S3x125000_S10x125000_1_0_0_1_n_n.lhsNonContracting by decide)]
  rfl
theorem lhs1 (i : S10x125000.Idx) (q : dot_S10x3_S3x125000_S10x125000_1_0_0_1_n_n.contr.Idx) :
    (dot_S10x3_S3x125000_S10x125000_1_0_0_1_n_n.lhsIdx i q 1).val = (q ⟨0, by decide⟩).val :=
  dot_S10x3_S3x125000_S10x125000_1_0_0_1_n_n.lhsIdx_val_of_single rfl i q
theorem rhs0 (i : S10x125000.Idx) (q : dot_S10x3_S3x125000_S10x125000_1_0_0_1_n_n.contr.Idx) :
    (dot_S10x3_S3x125000_S10x125000_1_0_0_1_n_n.rhsIdx i q 0).val = (q ⟨0, by decide⟩).val :=
  dot_S10x3_S3x125000_S10x125000_1_0_0_1_n_n.rhsIdx_val_of_single rfl i q
theorem rhs1 (i : S10x125000.Idx) (q : dot_S10x3_S3x125000_S10x125000_1_0_0_1_n_n.contr.Idx) :
    (dot_S10x3_S3x125000_S10x125000_1_0_0_1_n_n.rhsIdx i q 1).val = (i 1).val := by
  unfold DotDims.rhsIdx
  rw [dif_neg (show ¬(1 : Fin S3x125000.rank) ∈ dot_S10x3_S3x125000_S10x125000_1_0_0_1_n_n.rhsBatch by decide),
    dif_pos (show (1 : Fin S3x125000.rank) ∈ dot_S10x3_S3x125000_S10x125000_1_0_0_1_n_n.rhsNonContracting by decide)]
  rfl

/-- The product into the zero accumulator at (f, n): the three-term sum. -/
theorem matmul_at (w : FVec Ideal S10x3 .f32) (xt : FVec Ideal S3x125000 .f32) (f : Fin 10) (n : Fin 125000) :
    matmul dot_S10x3_S3x125000_S10x125000_1_0_0_1_n_n (some .fp32) w xt (constant S10x125000 .f32 0x00000000#32) (ix2 f n)
      = ∑ k : Fin 3, w (ix2 f k) * xt (ix2 k n) := by
  simp only [matmul]
  rw [Ideal.matmul_constant_zero_apply,
    ← Equiv.sum_comp (contrEquiv1 dot_S10x3_S3x125000_S10x125000_1_0_0_1_n_n 3 rfl rfl).symm]
  refine Finset.sum_congr rfl fun k _ => ?_
  have hk := contrEquiv1_symm_val dot_S10x3_S3x125000_S10x125000_1_0_0_1_n_n 3 rfl rfl k
  have el : dot_S10x3_S3x125000_S10x125000_1_0_0_1_n_n.lhsIdx (ix2 f n)
      ((contrEquiv1 dot_S10x3_S3x125000_S10x125000_1_0_0_1_n_n 3 rfl rfl).symm k) = ix2 f k :=
    funext fun a => Fin.ext (by
      match a with
      | ⟨0, _⟩ => exact lhs0 _ _
      | ⟨1, _⟩ => exact (lhs1 _ _).trans hk)
  have er : dot_S10x3_S3x125000_S10x125000_1_0_0_1_n_n.rhsIdx (ix2 f n)
      ((contrEquiv1 dot_S10x3_S3x125000_S10x125000_1_0_0_1_n_n 3 rfl rfl).symm k) = ix2 k n :=
    funext fun a => Fin.ext (by
      match a with
      | ⟨0, _⟩ => exact (rhs0 _ _).trans hk
      | ⟨1, _⟩ => exact rhs1 _ _)
  rw [el, er]

/-- The bias column broadcast along the nodes, at (f, n): the column's entry f. -/
theorem bias_at (b : FVec Ideal S10x1 .f32) (f : Fin 10) (n : Fin 125000) :
    broadcastTo S10x125000 b broadcasts_S10x1_S10x125000 (ix2 f n) = b (ix2 f (0 : Fin 1)) := by
  refine broadcastTo_apply b broadcasts_S10x1_S10x125000 (ix2 f n) (ix2 f (0 : Fin 1)) fun ax => ?_
  match ax with
  | ⟨0, _⟩ =>
    show f.val = if (10 : Nat) = 1 then 0 else f.val
    rw [if_neg (by decide)]
  | ⟨1, _⟩ => rfl

/-- The stored value at entry (f, n). -/
theorem pay_apply (x0 : Vec Ideal S3x125000 .f32) (x1 : Vec Ideal S10x3 .f32) (x2 : Vec Ideal S10x1 .f32)
    (f : Fin 10) (n : Fin 125000) :
    k0_pay1 x0 x1 x2 (ix2 f n)
      = Ideal.logistic ((∑ k : Fin 3, x1 (ix2 f k) * x0 (ix2 k n)) + x2 (ix2 f (0 : Fin 1))) := by
  unfold k0_pay1
  rw [shapeCast_self, shapeCast_self]
  show Ideal.logistic (_ + _) = _
  rw [matmul_at, bias_at]

end Cert.KernelIdeal.ProjValue

end
-- ==== Proof.NodeTable.lean ====
/-
  The two programs' node tables are one array.

  Entry (n, f) of the kernel program's table is logistic(∑ k < 3, w[f, k] * xᵀ[k, n] + b[f]) with xᵀ[k, n] = x[n, k];
  entry (n, f) of the reference's is 1 / (1 + exp(−(∑ k < 3, x[n, k] * wᵀ[k, f] + b[f]))) with wᵀ[k, f] = w[f, k]. On the
  extended reals logistic z IS 1 / (1 + exp(−z)), the pattern 1.0 denotes 1, and the products commute.
-/
import proofs.«110728_j22153441312926_2_alg».proof.Proof.Gen.ReferenceIdeal.Read
import proofs.«110728_j22153441312926_2_alg».proof.Proof.ProjValue
import proofs.«110728_j22153441312926_2_alg».proof.Proof.KernelTables
import proofs.«110728_j22153441312926_2_alg».proof.Proof.EdgeLaw
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Proof.NodeTable

open Cert.ReferenceIdeal.Read

/-- A vector cast to a column reads, at (f, 0), its entry f. -/
theorem col_cast_at {α : Type} (b : (⟨1, ![10]⟩ : Shape).Idx → α) (h : (⟨1, ![10]⟩ : Shape).ShapeCasts ⟨2, ![10, 1]⟩)
    (f : Fin 10) (u : Fin 1) : shapeCast ⟨2, ![10, 1]⟩ b h (ix2 f u) = b (ix1 f) :=
  shapeCast_apply b h _ _ (by
    rw [Shape.rowMajor_val_two, Shape.rowMajor_val_one]
    show f.val = f.val * 1 + u.val
    omega)

/-! ## The reference's composed index maps, as coordinates -/

theorem e_l1 (n : Fin 125000) (f : Fin 10) (k : Fin 3) : lidx_main_v1 (ix2 n f) k = ix2 n k :=
  funext fun a => Fin.ext (by match a with | ⟨0, _⟩ => rfl | ⟨1, _⟩ => rfl)
theorem e_r1 (n : Fin 125000) (f : Fin 10) (k : Fin 3) : idx_main_v0 (ridx_main_v1 (ix2 n f) k) = ix2 f k :=
  funext fun a => Fin.ext (by match a with | ⟨0, _⟩ => rfl | ⟨1, _⟩ => rfl)
theorem e_b (n : Fin 125000) (f : Fin 10) : idx_main_v2 (idx_main_v3 (ix2 n f)) = ix1 f :=
  funext fun a => Fin.ext (by match a with | ⟨0, _⟩ => rfl)

/-- The kernel program's node table is the reference's. -/
theorem node_eq (x : (⟨Cert.ReferenceIdeal.S125000x3, .f32⟩ : BufTy).Contents (Elt Ideal))
    (w : (⟨Cert.ReferenceIdeal.S10x3, .f32⟩ : BufTy).Contents (Elt Ideal))
    (b : (⟨Cert.ReferenceIdeal.S10, .f32⟩ : BufTy).Contents (Elt Ideal)) :
    Cert.KernelIdeal.Tables.nodeTable x w b = val_main_v10 (F := Ideal) x w b := by
  funext i
  obtain ⟨n, f, rfl⟩ : ∃ (n : Fin 125000) (f : Fin 10), i = ix2 n f := ⟨i 0, i 1, eq_ix2 i⟩
  unfold Cert.KernelIdeal.Tables.nodeTable
  rw [transpose_ix2_apply, Cert.KernelIdeal.ProjValue.pay_apply, col_cast_at]
  rw [val_main_v10_apply, val_main_v9_apply, val_main_cst_0_apply, val_main_v8_apply, val_main_v7_apply,
    val_main_cst_apply, val_main_v6_apply, val_main_v5_apply, val_main_v4_apply, val_main_v1_apply,
    val_main_v3_apply, val_main_v2_apply, e_b]
  simp only [e_l1, val_main_v0_apply, e_r1, transpose_ix2_apply]
  show Ideal.logistic _ = Ideal.div (Ideal.ofBits .f32 0x3F800000#32) (Ideal.ofBits .f32 0x3F800000#32 + Ideal.exp (-(_ + _)))
  rw [Cert.EdgeLaw.ofBits_one]
  unfold Ideal.logistic
  congr 5
  refine Finset.sum_congr rfl fun k _ => ?_
  rw [mul_comm]
  exact congrArg (· * w (ix2 f k)) (transpose_ix2_apply x _ k n)

end Cert.Proof.NodeTable

end
-- ==== Proof.lean ====
/-
  Edge scores of a graph: a kernel program of two regions against its plain reference, equal on the extended reals.

  Both programs compute, for N = 125000 nodes with points x : [N, 3] and E = 4000000 edges (src, dst):
    • a node table  t[n, f] = logistic(∑ k < 3, x[n, k] * W1[f, k] + b1[f]),  f < 10;
    • for every edge e the rows gs = t[src e], gd = t[dst e] (a negative index has N added; the gather is the same
      operation in both programs);
    • the score  (∑ f < 10, Wx[0, f] * gs[f] + ∑ f < 10, Wx[0, 10 + f] * gd[f] + bx) * keep(e),
      keep(e) = 1 if ∑ f (gs[f] − gd[f])² < 1/4, else 0.
  The kernel program computes the node table feature-major in its first region (a matrix product, a bias column,
  logistic), gathers on the host, and computes the scores in its second region, 80000 edges per grid point, comparing the
  sum of squares with 1/4. The reference writes logistic as 1 / (1 + exp(−z)), takes the two products as one sum over the
  twenty entries of the joined row, and compares the square root of the sum of squares with 1/2.
  They agree entry by entry: logistic z IS 1 / (1 + exp(−z)) on the extended reals; products commute; twenty terms are
  ten and ten; and a sum of squares s is never negative, where √s < 1/2 exactly when s < 1/4. No finiteness is used.

  The modules: EdgeLaw (the algebra of one edge), EdgeSpec (the result array as one function of the two gathered tables),
  ProjValue / EdgeValue (each region's stored value at an entry), ProjArray / EdgeArray (from a region's blocks to its
  array), KernelRun (the program's run with its result named), KernelTables / Boundaries / ResultValue (the result read through the
  host stretches), RefValue (the reference computes the specification), NodeTable (the two node tables are one array).
-/
import proofs.«110728_j22153441312926_2_alg».proof.Defs
import proofs.«110728_j22153441312926_2_alg».proof.Proof.Gen.Kernel
import proofs.«110728_j22153441312926_2_alg».proof.Proof.Gen.Kernel.Skeleton
import proofs.«110728_j22153441312926_2_alg».proof.Proof.Gen.Kernel.Launch
import proofs.«110728_j22153441312926_2_alg».proof.Proof.Gen.Kernel.Points
import proofs.«110728_j22153441312926_2_alg».proof.Proof.Gen.Kernel.Frame
import proofs.«110728_j22153441312926_2_alg».proof.Proof.Gen.KernelIdeal
import proofs.«110728_j22153441312926_2_alg».proof.Proof.Gen.KernelIdeal.Skeleton
import proofs.«110728_j22153441312926_2_alg».proof.Proof.Gen.KernelIdeal.Launch
import proofs.«110728_j22153441312926_2_alg».proof.Proof.Gen.KernelIdeal.Points
import proofs.«110728_j22153441312926_2_alg».proof.Proof.Gen.KernelIdeal.Frame
import proofs.«110728_j22153441312926_2_alg».proof.Proof.Gen.ReferenceIdeal
import proofs.«110728_j22153441312926_2_alg».proof.Proof.Gen.ReferenceIdeal.Run
import proofs.«110728_j22153441312926_2_alg».proof.Proof.Gen.ReferenceIdeal.Read
import proofs.«110728_j22153441312926_2_alg».proof.Proof.Gen.Pre_finite_inputs
import proofs.«110728_j22153441312926_2_alg».proof.Proof.KernelRun
import proofs.«110728_j22153441312926_2_alg».proof.Proof.Boundaries
import proofs.«110728_j22153441312926_2_alg».proof.Proof.ResultValue
import proofs.«110728_j22153441312926_2_alg».proof.Proof.RefValue
import proofs.«110728_j22153441312926_2_alg».proof.Proof.NodeTable
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification of ONE pair of gathered tables: the kernel program's own (its run read
    through its boundaries), which the reference's are once the two node tables are identified. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.ResultValue.result_eq m ρ c), (h c).2⟩)
      (Cert.KernelIdeal.RunValue.run_result (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, -, -, h6, h7⟩ := hagree c
  rw [Cert.ReferenceIdeal.Read.val_main_v52_eq, Cert.ReferenceIdeal.RefValue.out_eq, h0, h1, h2, h3, h6, h7]
  unfold Cert.ReferenceIdeal.Read.val_main_v32 Cert.ReferenceIdeal.Read.val_main_v39
  rw [← Cert.Proof.NodeTable.node_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
